-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200x128 : Shape := ⟨3, ![4096, 200, 128]⟩
abbrev S4096 : Shape := ⟨1, ![4096]⟩
abbrev S_ : Shape := ⟨0, ![]⟩

class Facts : Prop where
  bcast_S_S4096x200x128 : S_.BroadcastsInDim S4096x200x128 (![] : Fin 0 → Fin S4096x200x128.rank)
  reducesTo_S4096x200x128_S_d0_1_2 : S4096x200x128.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x200x128 .f32) (main_arg1 : IVec S4096 32) : IVec S_ 1 :=
  let main_v0 : FVec F S4096x200x128 .f32 := Host.absf main_arg0
  let main_cst : FVec F S_ .f32 := constant S_ .f32 0x7F800000#32
  let main_v1 : FVec F S4096x200x128 .f32 := broadcastInDim S4096x200x128 ![] bcast_S_S4096x200x128 main_cst
  let main_v2 : IVec S4096x200x128 1 := cmpf .olt main_v0 main_v1
  let main_c : IVec S_ 1 := constantI S_ 1 1#1
  let main_v3 : IVec S_ 1 := (fun x v => Host.reduce IntOp.andi x v reducesTo_S4096x200x128_S_d0_1_2 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 199#32
  let main_v6 : IVec S4096 32 := broadcastInDim S4096 ![] bcast_S_S4096 main_c_1
  let main_v7 : IVec S4096 1 := cmpi .sle main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x200x128 : Shape := ⟨3, ![4096, 200, 128]⟩
abbrev S4096 : Shape := ⟨1, ![4096]⟩
abbrev S819200x128 : Shape := ⟨2, ![819200, 128]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S16 : Shape := ⟨1, ![16]⟩

abbrev nBuf : Table → Nat
  | .hbm => 4
  | .local .scVector .vmem => 2
  | _ => 0

abbrev bufTy : (tb : Table) → Fin (nBuf tb) → BufTy
  | .hbm, ⟨0, _⟩ => ⟨S4096x200x128, .f32⟩
  | .hbm, ⟨1, _⟩ => ⟨S4096, .i32⟩
  | .hbm, ⟨2, _⟩ => ⟨S819200x128, .f32⟩
  | .hbm, ⟨3, _⟩ => ⟨S4096x128, .f32⟩
  | .local .scVector .vmem, ⟨0, _⟩ => ⟨S128, .i32⟩
  | .local .scVector .vmem, ⟨1, _⟩ => ⟨S128x128, .f32⟩
  | _, _ => ⟨S4096x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_27_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200x128_S819200x128 : S4096x200x128.ShapeCasts S819200x128
  iota_S16_d0_w32_scVector : S16.Iotas .scVector 32 [0]
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S819200x128_S819200x128_0_0 : ∀ a, (![0, 0] : Fin 2 → Nat) a + S819200x128.size a ≤ S819200x128.size a
  gathers_S819200x128_S128x128 : S819200x128.Gathers 0 S128x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ a, (k0_off2 i) a + S128x128.size a ≤ S4096x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096x200x128 : Shape := ⟨3, ![4096, 200, 128]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x128 : Shape := ⟨2, ![4096, 128]⟩

abbrev nBuf : Space → Nat
  | .hbm => 21
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S4096x200x128_S4096x2_S4096x128_1_01_n_n_01_1_11128_wf : GatherDims.WF S4096x200x128 S4096x2 S4096x128 [1] [0, 1] [] [0, 1] [] 1 ![1, 1, 128]

variable [Facts₀]

def gather_S4096x200x128_S4096x2_S4096x128_1_01_n_n_01_1_11128 : GatherDims S4096x200x128 S4096x2 S4096x128 where
  offsetDims := [1]
  collapsedSliceDims := [0, 1]
  operandBatchingDims := []
  startIndicesBatchingDims := []
  startIndexMap := [0, 1]
  indexVectorDim := 1
  sliceSizes := ![1, 1, 128]
  wf := gather_S4096x200x128_S4096x2_S4096x128_1_01_n_n_01_1_11128_wf

class Facts : Prop extends Facts₀ where

variable [Facts]
-- ==== Proof.Spec.lean ====
/-
  What both programs compute, as one function of the two argument arrays: result row `b` is row
  `idx b` of slab `b` of the three-axis array (the word `idx b` read as a natural number; reduced
  modulo the slab count 200 only so that the function is total — under the precondition every word
  is already below 200).
-/
import Idealize.ShloMosaic.PureOps
import Idealize.ShloMosaic.Lib.ValueIdx

namespace Cert.Proof.Spec

open Idealize.ShloMosaic Idealize.ShloMosaic.ValueIdx

abbrev S4096x200x128 : Shape := ⟨3, ![4096, 200, 128]⟩
abbrev S4096 : Shape := ⟨1, ![4096]⟩
abbrev S4096x128 : Shape := ⟨2, ![4096, 128]⟩

/-- Result element `(b, l)` is element `(b, idx b, l)` of the three-axis array. -/
def pick {α : Type} (seq : S4096x200x128.Idx → α) (idx : S4096.Idx → BitVec 32) : S4096x128.Idx → α :=
  fun j => seq (ix3 (j 0) ⟨(idx (ix1 (j 0))).toNat % 200, Nat.mod_lt _ (by decide)⟩ (j 1))

theorem pick_apply {α : Type} (seq : S4096x200x128.Idx → α) (idx : S4096.Idx → BitVec 32) (b : Fin 4096) (l : Fin 128)
    (h : (idx (ix1 b)).toNat < 200) :
    pick seq idx (ix2 b l) = seq (ix3 b ⟨(idx (ix1 b)).toNat, h⟩ l) := by
  unfold pick
  congr 1
  exact congrArg (fun k => ix3 b k l) (Fin.ext (Nat.mod_eq_of_lt h))

end Cert.Proof.Spec
-- ==== Proof.IdealGatherSetup.lean ====
/-
  The gather kernel, as the launch theorem sees it: thirty-two tasks (two SparseCores, sixteen vector subcores each),
  task `w = 2·subcore + core` working on block `w` of 128 consecutive index words and 128 consecutive result rows.
  Each task fetches its 128 index words, adds `200·(128·w + k)` to word `k` — turning a row number inside slab
  `128·w + k` of the three-axis array into a row number of the table, which is that array re-laid as 819200 rows —,
  gathers those 128 table rows and writes them to its block of the result. Here: the configuration, the buffers, how
  index words, table and result are divided among the tasks, and what the handshakes carry.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.KernelIdeal
import proofs.«219289_g10934986736288_week1_w3_421_6_alg».proof.Proof.Gen.KernelIdeal.Skeleton
import proofs.«219289_g10934986736288_week1_w3_421_6_alg».proof.Proof.Spec

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The three-axis array, the index words, the table (the three-axis array's rows in row-major order) and the result. -/
abbrev aLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "iV" => (Memref.whole Cert.KernelIdeal.main_arg1_scv : Memref Cert.KernelIdeal.sig Kind.scVector Space.hbm Cert.KernelIdeal.S4096 EltTy.i32)
local notation "tV" => (Memref.whole Cert.KernelIdeal.main_v0_scv : Memref Cert.KernelIdeal.sig Kind.scVector Space.hbm Cert.KernelIdeal.S819200x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- The 4096 index words and the 4096 result rows fall into 32 consecutive blocks of 128, one per task. -/
theorem idiv : 32 ∣ S4096.size 0 := ⟨128, rfl⟩
theorem odiv : 32 ∣ S4096x128.size 0 := ⟨128, rfl⟩
abbrev irow (w : Fin 32) : Rect S4096 := Rect.part (s := S4096) (a₀ := 0) idiv w
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((oV).view.slice (orow w)).set

/-- Task `w`'s read share of the table: every task reads rows anywhere in it. -/
abbrev tq (w : Fin 32) : PosShare TreeShare := Transfers.shareTok fullShare 32 w

/-- The task on vector subcore `i` of SparseCore `c` works on block `2 i + c`. -/
def wid (c : Fin 2) (i : Fin 16) : Fin 32 := ⟨2 * i.val + c.val, by omega⟩

variable [FloatOps F]

/-- The table's contents when the kernel starts: the three-axis array re-laid as 819200 rows of 128. -/
def tbl (d : Dev nD) : Buf (Elt F) (tLoc d) :=
  fun i => shapeCast S819200x128 (m (aLoc d)) shapeCasts_S4096x200x128_S819200x128 i

/-- The result the kernel leaves: row `b` is row `idx b` of slab `b`. -/
def res (d : Dev nD) : Buf (Elt F) (oLoc d) := Cert.Proof.Spec.pick (m (aLoc d)) (m (iLoc d))

/-! ## What the handshakes carry -/

abbrev iRowPts (d : Dev nD) (w : Fin 32) : sProp 𝕄 := iLoc d ↦[iRowSet w]{fullShare} m (iLoc d)
abbrev tShPts (d : Dev nD) (w : Fin 32) : sProp 𝕄 := tLoc d ↦{tq w} tbl m d
abbrev oRowPts (d : Dev nD) (w : Fin 32) (f : Buf (Elt F) (oLoc d)) : sProp 𝕄 := oLoc d ↦[oRowSet w]{fullShare} f

/-- What task `w` is handed, and what it hands back: its block of index words, its read share of the table, and its
    block of result rows — at the launch contents going in, at the result coming back. -/
abbrev goW (d : Dev nD) (w : Fin 32) : sProp 𝕄 := iprop(iRowPts m d w ∗ tShPts m d w ∗ oRowPts d w (m (oLoc d)))
abbrev tdW (d : Dev nD) (w : Fin 32) : sProp 𝕄 := iprop(iRowPts m d w ∗ tShPts m d w ∗ oRowPts d w (res m d))

/-- A SparseCore's sequencer is handed, and hands back, exactly its sixteen tasks' parts. -/
def P : (K (F := F)).Pay (nD := nD) (Val := Elt F) (Name := ℕ) (U := UU) where
  st := fun q d c => match q with
    | 0 => bigSep Finset.univ fun i : Fin 16 => goW m d (wid (Fin.cast nCore_zero c) i)
  dn := fun q d c => match q with
    | 0 => bigSep Finset.univ fun i : Fin 16 => tdW m d (wid (Fin.cast nCore_zero c) i)
  go := fun q d c i => match q with
    | 0 => goW m d (wid (Fin.cast nCore_zero c) (Fin.cast nSub_zero i))
  td := fun q d c i => match q with
    | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wid (Fin.cast nCore_zero c) i)))
  dn q d c := match q with
    | 0 => (inferInstance : BI.Storable (upEmb : UEmb _ 𝕄) (bigSep Finset.univ fun i : Fin 16 => tdW m d (wid (Fin.cast nCore_zero c) i)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-- What the proof asks of the launch memory: every index word names a row of its slab. -/
def PreOK : Prop := ∀ (d : Dev nD) (j : S4096.Idx), (m (iLoc d) j).toNat < 200

end Cert.Proof.IdealGather

end
-- ==== Proof.IdealGatherParts.lean ====
/-
  Dividing the arrays among the thirty-two tasks: the 4096 index words and the 4096 result rows fall into 32 disjoint
  blocks of 128 that cover them; block numbers are the pairs (core, subcore); and row `200·b + k` of the table is row
  `k` of slab `b` of the three-axis array, the two sitting at the same row-major position.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.KernelIdeal
import proofs.«219289_g10934986736288_week1_w3_421_6_alg».proof.Proof.Gen.KernelIdeal.Skeleton
import proofs.«219289_g10934986736288_week1_w3_421_6_alg».proof.Proof.Spec
import proofs.«219289_g10934986736288_week1_w3_421_6_alg».proof.Proof.IdealGatherSetup
import Idealize.ShloMosaic.Lib.ValueIdx
import Idealize.ShloMosaic.Lib.Pipeline.Value

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4096 EltTy.i32)
local notation "tV" => (Memref.whole Cert.KernelIdeal.main_v0_scv : Memref Cert.KernelIdeal.sig Kind.scVector Space.hbm Cert.KernelIdeal.S819200x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

variable (m : (ℓ : Loc nD τ sig) → Buf (Elt F) ℓ) (ρ : Dev nD → PrngReg)
variable [FloatOps F]

open Idealize.ShloMosaic.ValueIdx

/-! ## The index words and the result rows, divided among the thirty-two tasks -/

omit [FloatOps F] in
/-- Holding a whole buffer is holding, each separately, the members of any finite family of element sets that are
    pairwise disjoint and among which every element of the buffer lies. -/
theorem pts_family {ℓ : Loc nD τ sig} {T : Type} [Fintype T] (Ks : T → Finset (Idx ℓ))
    (hdis : ∀ t t' : T, t ≠ t' → Disjoint (Ks t) (Ks t')) (hall : ∀ x : Idx ℓ, ∃ t, x ∈ Ks t) (f : Buf (Elt F) ℓ) :
    (ℓ ↦{fullShare} f : sProp 𝕄) = bigSep Finset.univ fun t : T => ℓ ↦[Ks t]{fullShare} f := by
  have hcov : (Finset.univ : Finset T).biUnion Ks = Finset.univ := by
    ext x
    simp only [Finset.mem_biUnion, Finset.mem_univ, true_and, iff_true]
    exact hall x
  rw [← pointsTo_biUnion Finset.univ Ks (fun t _ t' _ h => hdis t t' h), hcov]

omit [FloatOps F] in
/-- Task `w`'s index words: the elements of the `w`-th of the 32 equal parts of the 4096 words (a part of the whole
    array, seen through the whole array's own view, is that part). -/
theorem iRowSet_part (w : Fin 32) : iRowSet w = (irow w).set :=
  View.set_slice_whole (main_arg1_scv : Ref sig .scVector) (irow w)

omit [FloatOps F] in
/-- Task `w`'s result rows: the elements of the `w`-th of the 32 equal parts of the 4096 rows. -/
theorem oRowSet_part (w : Fin 32) : oRowSet w = (orow w).set :=
  View.set_slice_whole (main_v1_scv : Ref sig .scVector) (orow w)

omit [FloatOps F] in
/-- Holding all the index words is holding each task's block of them, separately: the 32 parts are pairwise disjoint,
    and word `x` lies in part `x / 128`. -/
theorem iPts_rows (d : Dev nD) (f : Buf (Elt F) (iLoc d)) :
    (iLoc d ↦{fullShare} f : sProp 𝕄) = bigSep Finset.univ fun w : Fin 32 => iLoc d ↦[iRowSet w]{fullShare} f := by
  refine pts_family (ℓ := iLoc d) iRowSet (fun w w' hne => ?_) (fun x => ?_) f
  · rw [iRowSet_part, iRowSet_part]
    exact Rect.part_disjoint idiv hne
  · obtain ⟨w, hw⟩ := Rect.exists_mem_part idiv x
    exact ⟨w, (iRowSet_part w).symm ▸ hw⟩

omit [FloatOps F] in
/-- Holding the whole result is holding each task's block of its rows, separately: the 32 parts are pairwise disjoint,
    and element `(r, l)` lies in part `r / 128`. -/
theorem oPts_rows (d : Dev nD) (f : Buf (Elt F) (oLoc d)) :
    (oLoc d ↦{fullShare} f : sProp 𝕄) = bigSep Finset.univ fun w : Fin 32 => oLoc d ↦[oRowSet w]{fullShare} f := by
  refine pts_family (ℓ := oLoc d) oRowSet (fun w w' hne => ?_) (fun x => ?_) f
  · rw [oRowSet_part, oRowSet_part]
    exact Rect.part_disjoint odiv hne
  · obtain ⟨w, hw⟩ := Rect.exists_mem_part odiv x
    exact ⟨w, (oRowSet_part w).symm ▸ hw⟩

/-! ## The thirty-two blocks, numbered by core and subcore -/

/-- Block numbers `0 … 31` are the pairs (core `c` below 2, subcore `i` below 16) through `w = 2 i + c`: the core is the
    block number's parity, the subcore its half. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    have hc := c.isLt
    have hi := i.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit [FloatOps F] in
/-- A separating product over the thirty-two blocks is the product over the two cores of the products over each core's
    sixteen subcores. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]
  rfl

/-! ## The table's rows -/

/-- Row `200 b + k` of the table is row `k` of slab `b` of the three-axis array: both sit at row-major position
    `(200 b + k)·128 + l`. -/
theorem tbl_row (d : Dev nD) (b : Fin 4096) (k : Fin 200) (l : Fin 128) (h : 200 * b.val + k.val < 819200) :
    tbl m d (ix2 ⟨200 * b.val + k.val, h⟩ l) = m (aLoc d) (ix3 b k l) := by
  unfold tbl
  refine shapeCast_apply _ _ _ (ix3 b k l) ?_
  rw [Shape.rowMajor_val_three, Shape.rowMajor_val_two]
  show (b.val * 200 + k.val) * 128 + l.val = (200 * b.val + k.val) * 128 + l.val
  omega

end Cert.Proof.IdealGather

end
-- ==== Proof.IdealGatherTask.lean ====
/-
  One task of the gather kernel, at a symbolic grid point. The task's list of row numbers: after the fetch, word `x`
  is index word `base + x` (`base` = 128 times the task's block number); the eight 16-lane additions add
  `200·lane + 200·(base + 16·chunk)` to each lane, that is `200·(base + x)` to word `x` — arithmetic in 32-bit words in
  which, under the precondition, nothing wraps. So word `x` names table row `200·(base + x) + idx (base + x)`, which is
  row `idx (base + x)` of slab `base + x` of the three-axis array: the gathered rows, written to the task's block of the
  result, are the specification's rows.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.KernelIdeal
import proofs.«219289_g10934986736288_week1_w3_421_6_alg».proof.Proof.Gen.KernelIdeal.Skeleton
import proofs.«219289_g10934986736288_week1_w3_421_6_alg».proof.Proof.Spec
import proofs.«219289_g10934986736288_week1_w3_421_6_alg».proof.Proof.IdealGatherSetup
import proofs.«219289_g10934986736288_week1_w3_421_6_alg».proof.Proof.IdealGatherParts
import Idealize.ShloMosaic.Lib.Pipeline.Value
import Idealize.ShloMosaic.Lib.WritesUnit
import Idealize.ShloMosaic.Lib.ValueIdx

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4096 EltTy.i32)
local notation "tV" => (Memref.whole Cert.KernelIdeal.main_v0_scv : Memref Cert.KernelIdeal.sig Kind.scVector Space.hbm Cert.KernelIdeal.S819200x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

variable (m : (ℓ : Loc nD τ sig) → Buf (Elt F) ℓ) (ρ : Dev nD → PrngReg)
variable [FloatOps F]

open Idealize.ShloMosaic.ValueIdx

/-! ## The list of row numbers, as the eight lane-wise additions leave it -/

/-- Words of 32 bits are the natural numbers modulo 2³². -/
theorem ofNat_cast (n : ℕ) : BitVec.ofNat 32 n = ((n : ℕ) : BitVec 32) := rfl

/-- The first result row of the task at grid point `L`: 128 times its block number. -/
def base (L : grid0.Coords) : ℕ := 256 * (L 1).val + 128 * (L 0).val

/-- That number as the kernel computes it, in 32-bit words. -/
def w2 (L : grid0.Coords) : BitVec 32 :=
  Scalar.muli (Scalar.addi (Scalar.muli (BitVec.ofNat 32 (L 1).val) 2#32) (BitVec.ofNat 32 (L 0).val)) 128#32

/-- Lane `l` of chunk `c` adds `200·l + 200·(base + c)`, that is 200 times the lane's result row. -/
theorem lane_word (L : grid0.Coords) (c : ℕ) (a : BitVec 32) (l : ℕ) :
    a + (BitVec.ofNat 32 l * 200#32 + ((BitVec.ofNat 32 (L 1).val * 2#32 + BitVec.ofNat 32 (L 0).val) * 128#32 + BitVec.ofNat 32 c) * 200#32)
      = a + BitVec.ofNat 32 (200 * (base L + c + l)) := by
  have h1 : (L 1).val < 16 := (L 1).isLt
  have h0 : (L 0).val < 2 := (L 0).isLt
  apply BitVec.eq_of_toNat_eq
  simp only [BitVec.toNat_add, BitVec.toNat_mul, BitVec.toNat_ofNat, base, Nat.reducePow, Nat.reduceMod]
  omega

theorem iota_lane (h : S16.Iotas .scVector 32 [0]) (l : S16.Idx) : iota .scVector S16 32 [0] h l = BitVec.ofNat 32 (l 0).val := by
  simp [iota]

theorem pay1_apply (L : grid0.Coords) (v : Vec F S16 .i32) (l : S16.Idx) :
    k0_pay1 (F := F) L v l = v l + BitVec.ofNat 32 (200 * (base L + 0 + (l 0).val)) := by
  unfold k0_pay1
  simp only [shapeCast_self, Idealize.ShloMosaic.addi, Idealize.ShloMosaic.muli, broadcast, IntOp.addi, IntOp.muli, Scalar.addi, Scalar.muli]
  rw [iota_lane]
  exact lane_word L 0 (v l) (l 0).val

theorem pay2_apply (L : grid0.Coords) (v : Vec F S16 .i32) (l : S16.Idx) :
    k0_pay2 (F := F) L v l = v l + BitVec.ofNat 32 (200 * (base L + 16 + (l 0).val)) := by
  unfold k0_pay2
  simp only [shapeCast_self, Idealize.ShloMosaic.addi, Idealize.ShloMosaic.muli, broadcast, IntOp.addi, IntOp.muli, Scalar.addi, Scalar.muli]
  rw [iota_lane]
  exact lane_word L 16 (v l) (l 0).val

theorem pay5_apply (L : grid0.Coords) (v : Vec F S16 .i32) (l : S16.Idx) :
    k0_pay5 (F := F) k0_pay3 (k0_pay4 L) v l = v l + BitVec.ofNat 32 (200 * (base L + 32 + (l 0).val)) := by
  unfold k0_pay5 k0_pay3 k0_pay4
  simp only [shapeCast_self, Idealize.ShloMosaic.addi, Idealize.ShloMosaic.muli, broadcast, IntOp.addi, IntOp.muli, Scalar.addi, Scalar.muli]
  rw [iota_lane]
  exact lane_word L 32 (v l) (l 0).val

theorem pay6_apply (L : grid0.Coords) (v : Vec F S16 .i32) (l : S16.Idx) :
    k0_pay6 (F := F) (w2 L) v l = v l + BitVec.ofNat 32 (200 * (base L + 48 + (l 0).val)) := by
  unfold k0_pay6 w2
  simp only [shapeCast_self, Idealize.ShloMosaic.addi, Idealize.ShloMosaic.muli, broadcast, IntOp.addi, IntOp.muli, Scalar.addi, Scalar.muli]
  rw [iota_lane]
  exact lane_word L 48 (v l) (l 0).val

theorem pay7_apply (L : grid0.Coords) (v : Vec F S16 .i32) (l : S16.Idx) :
    k0_pay7 (F := F) (w2 L) v l = v l + BitVec.ofNat 32 (200 * (base L + 64 + (l 0).val)) := by
  unfold k0_pay7 w2
  simp only [shapeCast_self, Idealize.ShloMosaic.addi, Idealize.ShloMosaic.muli, broadcast, IntOp.addi, IntOp.muli, Scalar.addi, Scalar.muli]
  rw [iota_lane]
  exact lane_word L 64 (v l) (l 0).val

theorem pay9_apply (L : grid0.Coords) (v : Vec F S16 .i32) (l : S16.Idx) :
    k0_pay9 (F := F) (k0_pay8 (w2 L)) v l = v l + BitVec.ofNat 32 (200 * (base L + 80 + (l 0).val)) := by
  unfold k0_pay9 k0_pay8 w2
  simp only [shapeCast_self, Idealize.ShloMosaic.addi, Idealize.ShloMosaic.muli, broadcast, IntOp.addi, IntOp.muli, Scalar.addi, Scalar.muli]
  rw [iota_lane]
  exact lane_word L 80 (v l) (l 0).val

theorem pay10_apply (L : grid0.Coords) (v : Vec F S16 .i32) (l : S16.Idx) :
    k0_pay10 (F := F) (w2 L) v l = v l + BitVec.ofNat 32 (200 * (base L + 96 + (l 0).val)) := by
  unfold k0_pay10 w2
  simp only [shapeCast_self, Idealize.ShloMosaic.addi, Idealize.ShloMosaic.muli, broadcast, IntOp.addi, IntOp.muli, Scalar.addi, Scalar.muli]
  rw [iota_lane]
  exact lane_word L 96 (v l) (l 0).val

theorem pay11_apply (L : grid0.Coords) (v : Vec F S16 .i32) (l : S16.Idx) :
    k0_pay11 (F := F) (w2 L) v l = v l + BitVec.ofNat 32 (200 * (base L + 112 + (l 0).val)) := by
  unfold k0_pay11 w2
  simp only [shapeCast_self, Idealize.ShloMosaic.addi, Idealize.ShloMosaic.muli, broadcast, IntOp.addi, IntOp.muli, Scalar.addi, Scalar.muli]
  rw [iota_lane]
  exact lane_word L 112 (v l) (l 0).val

/-- A 16-lane load at offset `c` of the fetched list reads the fetched words `c … c + 15`. -/
theorem ld_hit (c : ℕ) (inb : ∀ a, (![c] : Fin 1 → Nat) a + S16.size a ≤ S128.size a) (fs : (sV).view.ty.Contents (Elt F)) (dma : S128.Idx → Elt F .i32)
    (x : S128.Idx) (h : ∀ a, (![c] : Fin 1 → Nat) a ≤ (x a).val ∧ (x a).val < (![c] : Fin 1 → Nat) a + S16.size a) :
    View.readAt (Elt F) (sV).view (Rect.unit (s := S128) ![c] S16.size inb).toLoadRect (View.write (Elt F) (sV).view fs dma Finset.univ)
      (Rect.unitLocal (s := S128) (off := ![c]) (size := S16.size) x h) = dma x := by
  rw [View.write_whole_univ]
  show dma _ = dma x
  congr 1
  funext a
  match a with
  | ⟨0, _⟩ =>
    apply Fin.ext
    have h0 : c ≤ (x 0).val ∧ (x 0).val < c + 16 := h 0
    show c + 1 * ((x 0).val - c) = (x 0).val
    omega

/-- The eight stored pieces, newest first: chunk `c` holds the fetched words of the chunk plus the lanes' amounts. -/
def pieces (L : grid0.Coords) (fs : (sV).view.ty.Contents (Elt F)) (dma : S128.Idx → Elt F .i32) : List (View.Piece (Elt F) S128 .i32) :=
  [⟨Rect.unit (s := S128) ![112] S16.size inb_S128_S16_112, k0_pay11 (w2 L) (View.readAt (Elt F) (sV).view (Rect.unit (s := S128) ![112] S16.size inb_S128_S16_112).toLoadRect (View.write (Elt F) (sV).view fs dma Finset.univ))⟩,
   ⟨Rect.unit (s := S128) ![96] S16.size inb_S128_S16_96, k0_pay10 (w2 L) (View.readAt (Elt F) (sV).view (Rect.unit (s := S128) ![96] S16.size inb_S128_S16_96).toLoadRect (View.write (Elt F) (sV).view fs dma Finset.univ))⟩,
   ⟨Rect.unit (s := S128) ![80] S16.size inb_S128_S16_80, k0_pay9 (k0_pay8 (w2 L)) (View.readAt (Elt F) (sV).view (Rect.unit (s := S128) ![80] S16.size inb_S128_S16_80).toLoadRect (View.write (Elt F) (sV).view fs dma Finset.univ))⟩,
   ⟨Rect.unit (s := S128) ![64] S16.size inb_S128_S16_64, k0_pay7 (w2 L) (View.readAt (Elt F) (sV).view (Rect.unit (s := S128) ![64] S16.size inb_S128_S16_64).toLoadRect (View.write (Elt F) (sV).view fs dma Finset.univ))⟩,
   ⟨Rect.unit (s := S128) ![48] S16.size inb_S128_S16_48, k0_pay6 (w2 L) (View.readAt (Elt F) (sV).view (Rect.unit (s := S128) ![48] S16.size inb_S128_S16_48).toLoadRect (View.write (Elt F) (sV).view fs dma Finset.univ))⟩,
   ⟨Rect.unit (s := S128) ![32] S16.size inb_S128_S16_32, k0_pay5 k0_pay3 (k0_pay4 L) (View.readAt (Elt F) (sV).view (Rect.unit (s := S128) ![32] S16.size inb_S128_S16_32).toLoadRect (View.write (Elt F) (sV).view fs dma Finset.univ))⟩,
   ⟨Rect.unit (s := S128) ![16] S16.size inb_S128_S16_16, k0_pay2 L (View.readAt (Elt F) (sV).view (Rect.unit (s := S128) ![16] S16.size inb_S128_S16_16).toLoadRect (View.write (Elt F) (sV).view fs dma Finset.univ))⟩,
   ⟨Rect.unit (s := S128) ![0] S16.size inb_S128_S16_0, k0_pay1 L (View.readAt (Elt F) (sV).view (Rect.unit (s := S128) ![0] S16.size inb_S128_S16_0).toLoadRect (View.write (Elt F) (sV).view fs dma Finset.univ))⟩]

/-- After the eight stores, word `x` of the list is the fetched word `x` plus 200 times the task's result row `x`:
    the row of the table where slab `base + x`'s row of that number sits. -/
theorem list_word (L : grid0.Coords) (g fs : (sV).view.ty.Contents (Elt F)) (dma : S128.Idx → Elt F .i32) (x : S128.Idx) :
    View.read (Elt F) (sV).view ((sV).view.writes (Elt F) g (pieces L fs dma)) x = dma x + BitVec.ofNat 32 (200 * (base L + (x 0).val)) := by
  have hx : (x 0).val < 128 := (x 0).isLt
  unfold pieces
  rw [View.read_writes_cons_unit _ _ _ _ _ x rfl]
  split
  · next h =>
    have h0 : 112 ≤ (x 0).val ∧ (x 0).val < 112 + 16 := h 0
    rw [pay11_apply, ld_hit]
    have e : base L + 112 + (Rect.unitLocal (s := S128) (off := ![112]) (size := S16.size) x h 0).val = base L + (x 0).val := by
      rw [Rect.unitLocal_val]; show base L + 112 + ((x 0).val - 112) = _; omega
    rw [e]
  · next h0 =>
    have n0 : ¬ (112 ≤ (x 0).val ∧ (x 0).val < 112 + 16) := fun hh => h0 (fun a => by
      match a with
      | ⟨0, _⟩ => exact hh)
    rw [View.read_writes_cons_unit _ _ _ _ _ x rfl]
    split
    · next h =>
      have h0 : 96 ≤ (x 0).val ∧ (x 0).val < 96 + 16 := h 0
      rw [pay10_apply, ld_hit]
      have e : base L + 96 + (Rect.unitLocal (s := S128) (off := ![96]) (size := S16.size) x h 0).val = base L + (x 0).val := by
        rw [Rect.unitLocal_val]; show base L + 96 + ((x 0).val - 96) = _; omega
      rw [e]
    · next h1 =>
      have n1 : ¬ (96 ≤ (x 0).val ∧ (x 0).val < 96 + 16) := fun hh => h1 (fun a => by
        match a with
        | ⟨0, _⟩ => exact hh)
      rw [View.read_writes_cons_unit _ _ _ _ _ x rfl]
      split
      · next h =>
        have h0 : 80 ≤ (x 0).val ∧ (x 0).val < 80 + 16 := h 0
        rw [pay9_apply, ld_hit]
        have e : base L + 80 + (Rect.unitLocal (s := S128) (off := ![80]) (size := S16.size) x h 0).val = base L + (x 0).val := by
          rw [Rect.unitLocal_val]; show base L + 80 + ((x 0).val - 80) = _; omega
        rw [e]
      · next h2 =>
        have n2 : ¬ (80 ≤ (x 0).val ∧ (x 0).val < 80 + 16) := fun hh => h2 (fun a => by
          match a with
          | ⟨0, _⟩ => exact hh)
        rw [View.read_writes_cons_unit _ _ _ _ _ x rfl]
        split
        · next h =>
          have h0 : 64 ≤ (x 0).val ∧ (x 0).val < 64 + 16 := h 0
          rw [pay7_apply, ld_hit]
          have e : base L + 64 + (Rect.unitLocal (s := S128) (off := ![64]) (size := S16.size) x h 0).val = base L + (x 0).val := by
            rw [Rect.unitLocal_val]; show base L + 64 + ((x 0).val - 64) = _; omega
          rw [e]
        · next h3 =>
          have n3 : ¬ (64 ≤ (x 0).val ∧ (x 0).val < 64 + 16) := fun hh => h3 (fun a => by
            match a with
            | ⟨0, _⟩ => exact hh)
          rw [View.read_writes_cons_unit _ _ _ _ _ x rfl]
          split
          · next h =>
            have h0 : 48 ≤ (x 0).val ∧ (x 0).val < 48 + 16 := h 0
            rw [pay6_apply, ld_hit]
            have e : base L + 48 + (Rect.unitLocal (s := S128) (off := ![48]) (size := S16.size) x h 0).val = base L + (x 0).val := by
              rw [Rect.unitLocal_val]; show base L + 48 + ((x 0).val - 48) = _; omega
            rw [e]
          · next h4 =>
            have n4 : ¬ (48 ≤ (x 0).val ∧ (x 0).val < 48 + 16) := fun hh => h4 (fun a => by
              match a with
              | ⟨0, _⟩ => exact hh)
            rw [View.read_writes_cons_unit _ _ _ _ _ x rfl]
            split
            · next h =>
              have h0 : 32 ≤ (x 0).val ∧ (x 0).val < 32 + 16 := h 0
              rw [pay5_apply, ld_hit]
              have e : base L + 32 + (Rect.unitLocal (s := S128) (off := ![32]) (size := S16.size) x h 0).val = base L + (x 0).val := by
                rw [Rect.unitLocal_val]; show base L + 32 + ((x 0).val - 32) = _; omega
              rw [e]
            · next h5 =>
              have n5 : ¬ (32 ≤ (x 0).val ∧ (x 0).val < 32 + 16) := fun hh => h5 (fun a => by
                match a with
                | ⟨0, _⟩ => exact hh)
              rw [View.read_writes_cons_unit _ _ _ _ _ x rfl]
              split
              · next h =>
                have h0 : 16 ≤ (x 0).val ∧ (x 0).val < 16 + 16 := h 0
                rw [pay2_apply, ld_hit]
                have e : base L + 16 + (Rect.unitLocal (s := S128) (off := ![16]) (size := S16.size) x h 0).val = base L + (x 0).val := by
                  rw [Rect.unitLocal_val]; show base L + 16 + ((x 0).val - 16) = _; omega
                rw [e]
              · next h6 =>
                have n6 : ¬ (16 ≤ (x 0).val ∧ (x 0).val < 16 + 16) := fun hh => h6 (fun a => by
                  match a with
                  | ⟨0, _⟩ => exact hh)
                rw [View.read_writes_cons_unit _ _ _ _ _ x rfl]
                split
                · next h =>
                  have h0 : 0 ≤ (x 0).val ∧ (x 0).val < 0 + 16 := h 0
                  rw [pay1_apply, ld_hit]
                  have e : base L + 0 + (Rect.unitLocal (s := S128) (off := ![0]) (size := S16.size) x h 0).val = base L + (x 0).val := by
                    rw [Rect.unitLocal_val]; show base L + 0 + ((x 0).val - 0) = _; omega
                  rw [e]
                · next h7 =>
                  have n7 : ¬ (0 ≤ (x 0).val ∧ (x 0).val < 0 + 16) := fun hh => h7 (fun a => by
                    match a with
                    | ⟨0, _⟩ => exact hh)
                  exfalso; omega

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The block the task at grid point `L` works on. -/
def wL (L : grid0.Coords) : Fin 32 := ⟨2 * (L 1).val + (L 0).val, by
  have h0 : (L 0).val < 2 := (L 0).isLt
  have h1 : (L 1).val < 16 := (L 1).isLt
  omega⟩
theorem wL_val (L : grid0.Coords) : (wL L).val = 2 * (L 1).val + (L 0).val := rfl

abbrev irowK (L : grid0.Coords) : Rect S4096 := Rect.unit (s := S4096) (k0_off1 L) S128.size (k0_off1_inb L)
abbrev orowK (L : grid0.Coords) : Rect S4096x128 := Rect.unit (s := S4096x128) (k0_off2 L) S128x128.size (k0_off2_inb L)
/-- The task's block of index words, its block of result rows and the whole table, as the task addresses them. -/
abbrev iRowK (L : grid0.Coords) : Memref sig .scVector .hbm S128 .i32 := (iV).slice (irowK L) (fun _ => rfl)
abbrev oRowK (L : grid0.Coords) : Memref sig .scVector .hbm S128x128 .f32 := (oV).slice (orowK L) (fun _ => rfl)
abbrev tAllK : Memref sig .scVector .hbm S819200x128 .f32 := (tV).slice (Rect.unit (s := S819200x128) ![0, 0] S819200x128.size inb_S819200x128_S819200x128_0_0) (fun _ => rfl)

theorem irowK_eq : irowK L = irow (wL L) := by
  unfold irowK irow Rect.part Rect.block
  congr 1 <;> funext a
  · rw [k0_off1_eq]
    match a with
    | 0 => simp [Shape.partIx, Shape.partSize, wL_val]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the gathered rows are -/

/-- The fetched list: the task's 128 index words. -/
abbrev fetched (d : Dev nD) (L : grid0.Coords) : S128.Idx → Elt F .i32 :=
  ReadAs.same.apply (View.read (Elt F) (iRowK L).view (m (iLoc d)))

/-- Word `x` of the task's block is index word `base + x`. -/
theorem iRowK_emb (x : S128.Idx) : (iRowK L).view.emb x = (ix1 ⟨base L + (x 0).val, by
    have h1 : (L 1).val < 16 := (L 1).isLt
    have h0 : (L 0).val < 2 := (L 0).isLt
    have hx : (x 0).val < 128 := (x 0).isLt
    unfold base; omega⟩ : S4096.Idx) := by
  funext a
  match a with
  | ⟨0, _⟩ =>
    apply Fin.ext
    show (k0_off1 L) 0 + 1 * (x 0).val = base L + (x 0).val
    rw [k0_off1_eq]
    simp [base]

omit [FloatOps F] in
theorem fetched_apply (x : S128.Idx) : fetched m d L x = m (iLoc d) ((iRowK L).view.emb x) :=
  (View.read_apply _ _).trans (cast_eq _ _)

omit [FloatOps F] in
/-- Under the precondition the word the list ends with is the index word plus 200 times the result row, as natural numbers:
    nothing wraps, the sum stays below 819200. -/
theorem word_toNat (hpre : PreOK m) (x : S128.Idx) :
    (fetched m d L x + BitVec.ofNat 32 (200 * (base L + (x 0).val))).toNat = (fetched m d L x).toNat + 200 * (base L + (x 0).val) := by
  have h1 : (L 1).val < 16 := (L 1).isLt
  have h0 : (L 0).val < 2 := (L 0).isLt
  have hx : (x 0).val < 128 := (x 0).isLt
  have hf : (fetched m d L x).toNat < 200 := by rw [fetched_apply]; exact hpre d _
  simp only [BitVec.toNat_add, BitVec.toNat_ofNat, Nat.reducePow, base] at hf ⊢
  omega

/-- Every row number the list names is a row of the table. -/
theorem list_inb (hpre : PreOK m) (g fs : (sV).view.ty.Contents (Elt F)) (x : S128.Idx) :
    (View.read (Elt F) (sV).view ((sV).view.writes (Elt F) g (pieces L fs (fetched m d L))) x).toNat
      < S819200x128.size gathers_S819200x128_S128x128.axis := by
  have h1 : (L 1).val < 16 := (L 1).isLt
  have h0 : (L 0).val < 2 := (L 0).isLt
  have hx : (x 0).val < 128 := (x 0).isLt
  have hf : (fetched m d L x).toNat < 200 := by rw [fetched_apply]; exact hpre d _
  rw [list_word, word_toNat m d L hpre]
  show _ < 819200
  unfold base; omega

/-- Result row `base + p`, element `q`, as the task addresses its block of the result. -/
theorem oRowK_emb (p q : Fin 128) : (oRowK L).view.emb (ix2 p q) = (ix2 ⟨base L + p.val, by
    have h1 : (L 1).val < 16 := (L 1).isLt
    have h0 : (L 0).val < 2 := (L 0).isLt
    unfold base; omega⟩ q : S4096x128.Idx) := by
  funext a
  match a with
  | ⟨0, _⟩ =>
    apply Fin.ext
    show (k0_off2 L) 0 + 1 * p.val = base L + p.val
    rw [k0_off2_eq]
    simp [base]
  | ⟨1, _⟩ =>
    apply Fin.ext
    show (k0_off2 L) 1 + 1 * q.val = q.val
    rw [k0_off2_eq]
    simp

/-- The gathered element `(p, q)`: the list's word `p` is `idx (base + p) + 200·(base + p)`, the table's row of that
    number is row `idx (base + p)` of slab `base + p` — the specification's row `base + p`. -/
theorem out_value (hpre : PreOK m) (fs : (sV).view.ty.Contents (Elt F))
    (hn : S128.numel = S128x128.size gathers_S819200x128_S128x128.axis')
    (hin : ∀ x, (View.read (Elt F) (sV).view ((sV).view.writes (Elt F) (sV).view.junk (pieces L fs (fetched m d L))) x).toNat
      < S819200x128.size gathers_S819200x128_S128x128.axis)
    (y : S128x128.Idx) :
    SparseCore.gatherPayload gathers_S819200x128_S128x128 (View.read (Elt F) (tAllK).view (tbl m d))
        (SparseCore.rows (View.read (Elt F) (sV).view ((sV).view.writes (Elt F) (sV).view.junk (pieces L fs (fetched m d L)))) hn hin) y
      = res m d ((oRowK L).view.emb y) := by
  obtain ⟨p, q, rfl⟩ : ∃ (p : Fin 128) (q : Fin 128), y = ix2 p q := ⟨y 0, y 1, eq_ix2 y⟩
  have h1 : (L 1).val < 16 := (L 1).isLt
  have h0 : (L 0).val < 2 := (L 0).isLt
  have hb : base L + p.val < 4096 := by unfold base; omega
  -- the list's entry for destination row `p`
  let x : S128.Idx := S128.rowMajor.symm ((((ix2 p q : S128x128.Idx) gathers_S819200x128_S128x128.axis')).cast hn.symm)
  have hx0 : (x 0).val = p.val := by
    have e := congrArg Fin.val (S128.rowMajor.apply_symm_apply ((((ix2 p q : S128x128.Idx) gathers_S819200x128_S128x128.axis')).cast hn.symm))
    rw [Shape.rowMajor_val_one] at e
    exact e
  have hxe : (iRowK L).view.emb x = (ix1 ⟨base L + p.val, hb⟩ : S4096.Idx) := by
    rw [iRowK_emb]; exact congrArg ix1 (Fin.ext (by show base L + (x 0).val = base L + p.val; rw [hx0]))
  have hk : (m (iLoc d) (ix1 ⟨base L + p.val, hb⟩)).toNat < 200 := hpre d _
  have hword : (View.read (Elt F) (sV).view ((sV).view.writes (Elt F) (sV).view.junk (pieces L fs (fetched m d L))) x).toNat
      = 200 * (base L + p.val) + (m (iLoc d) (ix1 ⟨base L + p.val, hb⟩)).toNat := by
    rw [list_word, word_toNat m d L hpre, fetched_apply, hxe, hx0]; omega
  rw [oRowK_emb]
  unfold res
  rw [Cert.Proof.Spec.pick_apply (m (aLoc d)) (m (iLoc d)) ⟨base L + p.val, hb⟩ q hk]
  rw [← tbl_row m d ⟨base L + p.val, hb⟩ ⟨(m (iLoc d) (ix1 ⟨base L + p.val, hb⟩)).toNat, hk⟩ q (by show 200 * (base L + p.val) + _ < 819200; omega)]
  unfold SparseCore.gatherPayload
  refine ((View.read_apply _ _).trans (cast_eq _ _)).trans (congrArg (tbl m d) ?_)
  funext a
  match a with
  | ⟨0, _⟩ =>
    apply Fin.ext
    show 0 + 1 * ((gathers_S819200x128_S128x128).idx _ (ix2 p q) 0).val = 200 * (base L + p.val) + (m (iLoc d) (ix1 ⟨base L + p.val, hb⟩)).toNat
    rw [show ((gathers_S819200x128_S128x128).idx (SparseCore.rows (View.read (Elt F) (sV).view ((sV).view.writes (Elt F) (sV).view.junk (pieces L fs (fetched m d L)))) hn hin) (ix2 p q) 0)
        = SparseCore.rows (View.read (Elt F) (sV).view ((sV).view.writes (Elt F) (sV).view.junk (pieces L fs (fetched m d L)))) hn hin ((ix2 p q : S128x128.Idx) gathers_S819200x128_S128x128.axis')
      from Shape.Gathers.idx_axis _ _ _]
    show 0 + 1 * (View.read (Elt F) (sV).view ((sV).view.writes (Elt F) (sV).view.junk (pieces L fs (fetched m d L))) x).toNat = _
    rw [hword]; omega
  | ⟨1, _⟩ =>
    apply Fin.ext
    show 0 + 1 * ((gathers_S819200x128_S128x128).idx _ (ix2 p q) 1).val = q.val
    rw [Shape.Gathers.idx_of_ne _ _ _ 1 (by decide)]
    show 0 + 1 * q.val = q.val
    omega

set_option maxHeartbeats 4000000 in
/-- The task on vector subcore `(L 0, L 1)` of device `d`: the fetch of its index words and its wait, the eight lane-wise
    additions, the gather of the table rows the list then names and its wait, the write-out of the rows and its wait;
    what it leaves in its block of the result is the specification's block. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (wL L) ∗ tShPts m d (wL L) ∗ oRowPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tV (Memref.isWhole_whole _) iV (Memref.isWhole_whole _) oV (Memref.isWhole_whole _)
            sV (Memref.isWhole_whole _) rV (Memref.isWhole_whole _) cc0_scratch2 cc0_scoped0 cc0_scoped1)
          fun _ => iprop((iRowPts m d (wL L) ∗ tShPts m d (wL L) ∗ oRowPts d (wL L) (res m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  simp only [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  -- the fetch, its wait, the eight additions: up to the gather's issue
  sl_exec
  -- the list as the additions left it: every word a row of the table
  have hin : ∀ x, (View.read (Elt F) (sV).view ((sV).view.writes (Elt F) (sV).view.junk (tile_body.sl.Hs'_8 m d L fs)) x).toNat
      < S819200x128.size gathers_S819200x128_S128x128.axis :=
    fun x => list_inb m d L hpre (sV).view.junk fs x
  -- the gather, its wait, the write-out, its wait
  sl_exec
  sl_step
  -- what the block of the result holds is the specification's block
  have hval : ∀ i ∈ (oRowK L).view.set,
      (oRowK L).view.writes (Elt F) (m (oLoc d)) [⟨Rect.whole S128x128, tile_body.sl.dma0_1 m d L fs fr hin⟩] i = res m d i := by
    intro i hi
    obtain ⟨y, -, rfl⟩ := Finset.mem_map.mp hi
    have e1 : (oRowK L).view.writes (Elt F) (m (oLoc d)) [⟨Rect.whole S128x128, tile_body.sl.dma0_1 m d L fs fr hin⟩] ((oRowK L).view.emb y)
        = tile_body.sl.dma0_1 m d L fs fr hin y :=
      (((View.read_apply _ _).trans (cast_eq _ _)).symm).trans (congrFun (View.read_writes_whole (oRowK L).view (m (oLoc d)) _) y)
    have e2 : tile_body.sl.dma0_1 m d L fs fr hin y = tile_body.sl.gather0 m d L fs hin y :=
      congrFun (View.read_writes_whole (rV).view fr (tile_body.sl.gather0 m d L fs hin)) y
    rw [e1, e2]
    exact out_value m d L hpre fs _ hin y
  ihave Ho2 := (Entails.of_eq (pointsTo_congr hval)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The block of the task the launch dispatches to vector subcore `i` of SparseCore `c` is the block of its grid point. -/
theorem wid_coords (c : Fin ((K (F := F)).nCore 0)) (i : Fin ((K (F := F)).nSub 0)) (h0 : c.val < grid0.bound 0) (h1 : i.val < grid0.bound 1) :
    wid (Fin.cast nCore_zero c) (Fin.cast nSub_zero i) = wL (coordsV ⟨c.val, h0⟩ ⟨i.val, h1⟩) := Fin.ext rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ goW m d (wid (Fin.cast nCore_zero c) (Fin.cast nSub_zero i)) ∗ _ ∗ _ ∗ _) ⊢ wp _ _ _ _ (fun _ => iprop(tdW m d (wid (Fin.cast nCore_zero c) (Fin.cast nSub_zero i)) ∗ _ ∗ _ ∗ _))
  rw [wid_coords c i hci.1 hci.2]
  exact (tile_body m d (coordsV ⟨_, hci.1⟩ ⟨_, hci.2⟩) hF hpre O W hO).trans (wp_mono frame _ _ fun _ => obl_post)

end Tile

end Cert.Proof.IdealGather

end
-- ==== Proof.IdealGatherLaunch.lean ====
/-
  The launch of the gather kernel: a SparseCore's operands are its sixteen tasks' parts; @main on the TensorCore lays out
  the table (the three-axis array's rows in row-major order), hands every task its block of index words, a read share of
  the table and its block of the result, and gets the result back whole, at the specification; the run of the whole
  family of threads follows from the library's launch theorem.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.KernelIdeal
import proofs.«219289_g10934986736288_week1_w3_421_6_alg».proof.Proof.Gen.KernelIdeal.Skeleton
import proofs.«219289_g10934986736288_week1_w3_421_6_alg».proof.Proof.Spec
import proofs.«219289_g10934986736288_week1_w3_421_6_alg».proof.Proof.IdealGatherTask

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4096 EltTy.i32)
local notation "tV" => (Memref.whole Cert.KernelIdeal.main_v0_scv : Memref Cert.KernelIdeal.sig Kind.scVector Space.hbm Cert.KernelIdeal.S819200x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

variable (m : (ℓ : Loc nD τ sig) → Buf (Elt F) ℓ) (ρ : Dev nD → PrngReg)

variable [FloatOps F]

/-! ## A SparseCore's operands are its sixteen tasks' -/

theorem vecSplit : (K (F := F)).VecSplit' (P m) 0 := by
  intro d c
  show (bigSep Finset.univ fun i : Fin 16 => goW m d (wid (Fin.cast nCore_zero c) i)) ⊢ |={Set.univ}=> iprop(
      (bigSep Finset.univ fun i : Fin ((K (F := F)).nSub 0) => goW m d (wid (Fin.cast nCore_zero c) (Fin.cast nSub_zero i)))
      ∗ ((bigSep Finset.univ fun i : Fin ((K (F := F)).nSub 0) => tdW m d (wid (Fin.cast nCore_zero c) (Fin.cast nSub_zero i)))
          -∗ bigSep Finset.univ fun i : Fin 16 => tdW m d (wid (Fin.cast nCore_zero c) i)))
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- @main's one host operation: the three-axis array re-laid as the table. -/
abbrev opRs : HloOp τ sig (Elt F) := StableHlo.reshape main_arg0 main_v0 rfl shapeCasts_S4096x200x128_S819200x128

/-- The TensorCore's four arrays, all unscoped. -/
abbrev S4 : Finset (DevRef τ sig) := {a', i', t', o'}

omit [FloatOps F] in
theorem held_S4 (d : Dev nD) (W : Valuation τ sig (Elt F)) :
    (held (T d) S4 W : sProp 𝕄)
      = iprop((aLoc d ↦{fullShare} W a') ∗ (iLoc d ↦{fullShare} W i') ∗ (tLoc d ↦{fullShare} W t') ∗ (oLoc d ↦{fullShare} W o')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (iLoc d ↦{fullShare} W main_arg1) ∗ (tLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hRs : (opRs (F := F)).bufs ⊆ S4 := show ({a', t'} : Finset (DevRef τ sig)) ⊆ S4 by decide

theorem V1_a (d : Dev nD) : (opRs (F := F)).result (V0 m d) a' = m (aLoc d) :=
  (opRs (F := F)).result_of_not_mem _ (show a' ∉ ({t'} : Finset (DevRef τ sig)) by decide)
theorem V1_i (d : Dev nD) : (opRs (F := F)).result (V0 m d) i' = m (iLoc d) :=
  (opRs (F := F)).result_of_not_mem _ (show i' ∉ ({t'} : Finset (DevRef τ sig)) by decide)
theorem V1_o (d : Dev nD) : (opRs (F := F)).result (V0 m d) o' = m (oLoc d) :=
  (opRs (F := F)).result_of_not_mem _ (show o' ∉ ({t'} : Finset (DevRef τ sig)) by decide)
/-- After the host operation the table holds the three-axis array's rows. -/
theorem V1_t (d : Dev nD) : (opRs (F := F)).result (V0 m d) t' = tbl m d :=
  StableHlo.reshape_result main_arg0 main_v0 rfl shapeCasts_S4096x200x128_S819200x128 ⟨by decide, rfl⟩ ⟨by decide, rfl⟩ (V0 m d)

theorem held_V1 (d : Dev nD) :
    (held (T d) S4 ((opRs (F := F)).result (V0 m d)) : sProp 𝕄)
      = iprop((aLoc d ↦{fullShare} m (aLoc d)) ∗ (iLoc d ↦{fullShare} m (iLoc d)) ∗ (tLoc d ↦{fullShare} tbl m d) ∗ (oLoc d ↦{fullShare} m (oLoc d))) := by
  rw [held_S4, V1_a, V1_i, V1_o, V1_t]

/-- The handshakes' two ends of the call, over the thirty-two blocks. -/
theorem st0_eq (d : Dev nD) : (bigSep Finset.univ fun c : Fin ((K (F := F)).nCore 0) => (P m).st 0 d c) = bigSep Finset.univ fun w : Fin 32 => goW m d w := by
  rw [bigSep_blocks (F := F) (fun w => goW m d w)]; rfl
theorem dn0_eq (d : Dev nD) : (bigSep Finset.univ fun c : Fin ((K (F := F)).nCore 0) => (P m).dn 0 d c) = bigSep Finset.univ fun w : Fin 32 => tdW m d w := by
  rw [bigSep_blocks (F := F) (fun w => tdW m d w)]; rfl

/-- What @main leaves the claim: the two arguments at their launch contents, the result at the specification. -/
abbrev FIN (d : Dev nD) : sProp 𝕄 := iprop((aLoc d ↦{fullShare} m (aLoc d)) ∗ (iLoc d ↦{fullShare} m (iLoc d)) ∗ (oLoc d ↦{fullShare} res m d))

/-- @main on device `d`'s TensorCore: the host operation that lays out the table; then the call, handing every task its
    block of index words, a read share of the table and its block of the result, and getting the blocks back at the
    specification's values. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hi, Ht, Ho⟩
  -- the index words and the result by blocks, the table by read shares
  ihave Hi2 := (Entails.of_eq (iPts_rows (F := F) d (m (iLoc d)))) $$ Hi
  ihave Ho2 := (Entails.of_eq (oPts_rows (F := F) d (m (oLoc d)))) $$ Ho
  ihave Ht2 := (Transfers.pointsTo_toks_split (ℓ := tLoc d) (S := Finset.univ) (f := tbl m d) fullShare 32) $$ Ht
  icases Ht2 with ⟨Htr, Ht2⟩
  iapply ((K (F := F)).wp_run (D (F := F)) 𝒱 (EH := EH) (P := P m) κ d 0) $$ [Hst Hi2 Ht2 Ho2 Ha Htr Hb]
  isplitr; · iexact Hctx
  isplitl [Hst]; · iexact Hst
  isplitl [Hi2 Ht2 Ho2]
  · rw [st0_eq, bigSep_sep', bigSep_sep']
    isplitl [Hi2]; · iexact Hi2
    isplitl [Ht2]; · iexact Ht2
    iexact Ho2
  iintro ⟨Hst, Hdn⟩
  ihave Hdn' := (Entails.of_eq ((dn0_eq m d).trans ((bigSep_sep' _ _ _).trans (congrArg _ (bigSep_sep' _ _ _))))) $$ Hdn
  icases Hdn' with ⟨Hi2, Ht2, Ho2⟩
  ihave Hi := (Entails.of_eq (iPts_rows (F := F) d (m (iLoc d))).symm) $$ Hi2
  ihave Ho := (Entails.of_eq (oPts_rows (F := F) d (res m d)).symm) $$ Ho2
  imodintro
  isplitl [Hst]; · iexact Hst
  isplitl [Ha]; · iexact Ha
  isplitl [Hi]; · iexact Hi
  iexact Ho

def fq (d : Dev nD) (s' : Phys nD τ sig (Elt F)) : Prop :=
  s'.mem.mem (oLoc d) = res m d ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro; exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = res m c ∧ r.2.mem (aLoc c) = m (aLoc c) ∧ r.2.mem (iLoc c) = m (iLoc c)

/-- Every weakly fair execution of the thirty-five threads ends, nothing faulting, with the result at the specification
    and the two arguments unchanged — when every index word names a row of its slab. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealGather

end
-- ==== Proof.WordGatherSetup.lean ====
/-
  (For the program as printed at the word level; the text is the idealized program's, instance for instance.)
  The gather kernel, as the launch theorem sees it: thirty-two tasks (two SparseCores, sixteen vector subcores each),
  task `w = 2·subcore + core` working on block `w` of 128 consecutive index words and 128 consecutive result rows.
  Each task fetches its 128 index words, adds `200·(128·w + k)` to word `k` — turning a row number inside slab
  `128·w + k` of the three-axis array into a row number of the table, which is that array re-laid as 819200 rows —,
  gathers those 128 table rows and writes them to its block of the result. Here: the configuration, the buffers, how
  index words, table and result are divided among the tasks, and what the handshakes carry.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.Kernel
import proofs.«219289_g10934986736288_week1_w3_421_6_alg».proof.Proof.Gen.Kernel.Skeleton
import proofs.«219289_g10934986736288_week1_w3_421_6_alg».proof.Proof.Spec
import proofs.«219289_g10934986736288_week1_w3_421_6_alg».proof.Proof.IdealGatherLaunch

noncomputable section

namespace Cert.Proof.WordGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The three-axis array, the index words, the table (the three-axis array's rows in row-major order) and the result. -/
abbrev aLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "iV" => (Memref.whole Cert.Kernel.main_arg1_scv : Memref Cert.Kernel.sig Kind.scVector Space.hbm Cert.Kernel.S4096 EltTy.i32)
local notation "tV" => (Memref.whole Cert.Kernel.main_v0_scv : Memref Cert.Kernel.sig Kind.scVector Space.hbm Cert.Kernel.S819200x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

/-- The 4096 index words and the 4096 result rows fall into 32 consecutive blocks of 128, one per task. -/
theorem idiv : 32 ∣ S4096.size 0 := ⟨128, rfl⟩
theorem odiv : 32 ∣ S4096x128.size 0 := ⟨128, rfl⟩
abbrev irow (w : Fin 32) : Rect S4096 := Rect.part (s := S4096) (a₀ := 0) idiv w
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((oV).view.slice (orow w)).set

/-- Task `w`'s read share of the table: every task reads rows anywhere in it. -/
abbrev tq (w : Fin 32) : PosShare TreeShare := Transfers.shareTok fullShare 32 w

/-- The task on vector subcore `i` of SparseCore `c` works on block `2 i + c`. -/
def wid (c : Fin 2) (i : Fin 16) : Fin 32 := ⟨2 * i.val + c.val, by omega⟩

variable [FloatOps F]

/-- The table's contents when the kernel starts: the three-axis array re-laid as 819200 rows of 128. -/
def tbl (d : Dev nD) : Buf (Elt F) (tLoc d) :=
  fun i => shapeCast S819200x128 (m (aLoc d)) shapeCasts_S4096x200x128_S819200x128 i

/-- The result the kernel leaves: row `b` is row `idx b` of slab `b`. -/
def res (d : Dev nD) : Buf (Elt F) (oLoc d) := Cert.Proof.Spec.pick (m (aLoc d)) (m (iLoc d))

/-! ## What the handshakes carry -/

abbrev iRowPts (d : Dev nD) (w : Fin 32) : sProp 𝕄 := iLoc d ↦[iRowSet w]{fullShare} m (iLoc d)
abbrev tShPts (d : Dev nD) (w : Fin 32) : sProp 𝕄 := tLoc d ↦{tq w} tbl m d
abbrev oRowPts (d : Dev nD) (w : Fin 32) (f : Buf (Elt F) (oLoc d)) : sProp 𝕄 := oLoc d ↦[oRowSet w]{fullShare} f

/-- What task `w` is handed, and what it hands back: its block of index words, its read share of the table, and its
    block of result rows — at the launch contents going in, at the result coming back. -/
abbrev goW (d : Dev nD) (w : Fin 32) : sProp 𝕄 := iprop(iRowPts m d w ∗ tShPts m d w ∗ oRowPts d w (m (oLoc d)))
abbrev tdW (d : Dev nD) (w : Fin 32) : sProp 𝕄 := iprop(iRowPts m d w ∗ tShPts m d w ∗ oRowPts d w (res m d))

/-- A SparseCore's sequencer is handed, and hands back, exactly its sixteen tasks' parts. -/
def P : (K (F := F)).Pay (nD := nD) (Val := Elt F) (Name := ℕ) (U := UU) where
  st := fun q d c => match q with
    | 0 => bigSep Finset.univ fun i : Fin 16 => goW m d (wid (Fin.cast nCore_zero c) i)
  dn := fun q d c => match q with
    | 0 => bigSep Finset.univ fun i : Fin 16 => tdW m d (wid (Fin.cast nCore_zero c) i)
  go := fun q d c i => match q with
    | 0 => goW m d (wid (Fin.cast nCore_zero c) (Fin.cast nSub_zero i))
  td := fun q d c i => match q with
    | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wid (Fin.cast nCore_zero c) i)))
  dn q d c := match q with
    | 0 => (inferInstance : BI.Storable (upEmb : UEmb _ 𝕄) (bigSep Finset.univ fun i : Fin 16 => tdW m d (wid (Fin.cast nCore_zero c) i)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-- What the proof asks of the launch memory: every index word names a row of its slab. -/
def PreOK : Prop := ∀ (d : Dev nD) (j : S4096.Idx), (m (iLoc d) j).toNat < 200

end Cert.Proof.WordGather

end
-- ==== Proof.WordGatherParts.lean ====
/-
  (For the program as printed at the word level; the text is the idealized program's, instance for instance.)
  Dividing the arrays among the thirty-two tasks: the 4096 index words and the 4096 result rows fall into 32 disjoint
  blocks of 128 that cover them; block numbers are the pairs (core, subcore); and row `200·b + k` of the table is row
  `k` of slab `b` of the three-axis array, the two sitting at the same row-major position.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.Kernel
import proofs.«219289_g10934986736288_week1_w3_421_6_alg».proof.Proof.Gen.Kernel.Skeleton
import proofs.«219289_g10934986736288_week1_w3_421_6_alg».proof.Proof.Spec
import proofs.«219289_g10934986736288_week1_w3_421_6_alg».proof.Proof.WordGatherSetup
import Idealize.ShloMosaic.Lib.ValueIdx
import Idealize.ShloMosaic.Lib.Pipeline.Value

noncomputable section

namespace Cert.Proof.WordGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S4096 EltTy.i32)
local notation "tV" => (Memref.whole Cert.Kernel.main_v0_scv : Memref Cert.Kernel.sig Kind.scVector Space.hbm Cert.Kernel.S819200x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

variable (m : (ℓ : Loc nD τ sig) → Buf (Elt F) ℓ) (ρ : Dev nD → PrngReg)
variable [FloatOps F]

open Idealize.ShloMosaic.ValueIdx

/-! ## The index words and the result rows, divided among the thirty-two tasks -/

omit [FloatOps F] in
/-- Holding a whole buffer is holding, each separately, the members of any finite family of element sets that are
    pairwise disjoint and among which every element of the buffer lies. -/
theorem pts_family {ℓ : Loc nD τ sig} {T : Type} [Fintype T] (Ks : T → Finset (Idx ℓ))
    (hdis : ∀ t t' : T, t ≠ t' → Disjoint (Ks t) (Ks t')) (hall : ∀ x : Idx ℓ, ∃ t, x ∈ Ks t) (f : Buf (Elt F) ℓ) :
    (ℓ ↦{fullShare} f : sProp 𝕄) = bigSep Finset.univ fun t : T => ℓ ↦[Ks t]{fullShare} f := by
  have hcov : (Finset.univ : Finset T).biUnion Ks = Finset.univ := by
    ext x
    simp only [Finset.mem_biUnion, Finset.mem_univ, true_and, iff_true]
    exact hall x
  rw [← pointsTo_biUnion Finset.univ Ks (fun t _ t' _ h => hdis t t' h), hcov]

omit [FloatOps F] in
/-- Task `w`'s index words: the elements of the `w`-th of the 32 equal parts of the 4096 words (a part of the whole
    array, seen through the whole array's own view, is that part). -/
theorem iRowSet_part (w : Fin 32) : iRowSet w = (irow w).set :=
  View.set_slice_whole (main_arg1_scv : Ref sig .scVector) (irow w)

omit [FloatOps F] in
/-- Task `w`'s result rows: the elements of the `w`-th of the 32 equal parts of the 4096 rows. -/
theorem oRowSet_part (w : Fin 32) : oRowSet w = (orow w).set :=
  View.set_slice_whole (main_v1_scv : Ref sig .scVector) (orow w)

omit [FloatOps F] in
/-- Holding all the index words is holding each task's block of them, separately: the 32 parts are pairwise disjoint,
    and word `x` lies in part `x / 128`. -/
theorem iPts_rows (d : Dev nD) (f : Buf (Elt F) (iLoc d)) :
    (iLoc d ↦{fullShare} f : sProp 𝕄) = bigSep Finset.univ fun w : Fin 32 => iLoc d ↦[iRowSet w]{fullShare} f := by
  refine pts_family (ℓ := iLoc d) iRowSet (fun w w' hne => ?_) (fun x => ?_) f
  · rw [iRowSet_part, iRowSet_part]
    exact Rect.part_disjoint idiv hne
  · obtain ⟨w, hw⟩ := Rect.exists_mem_part idiv x
    exact ⟨w, (iRowSet_part w).symm ▸ hw⟩

omit [FloatOps F] in
/-- Holding the whole result is holding each task's block of its rows, separately: the 32 parts are pairwise disjoint,
    and element `(r, l)` lies in part `r / 128`. -/
theorem oPts_rows (d : Dev nD) (f : Buf (Elt F) (oLoc d)) :
    (oLoc d ↦{fullShare} f : sProp 𝕄) = bigSep Finset.univ fun w : Fin 32 => oLoc d ↦[oRowSet w]{fullShare} f := by
  refine pts_family (ℓ := oLoc d) oRowSet (fun w w' hne => ?_) (fun x => ?_) f
  · rw [oRowSet_part, oRowSet_part]
    exact Rect.part_disjoint odiv hne
  · obtain ⟨w, hw⟩ := Rect.exists_mem_part odiv x
    exact ⟨w, (oRowSet_part w).symm ▸ hw⟩

/-! ## The thirty-two blocks, numbered by core and subcore -/

/-- Block numbers `0 … 31` are the pairs (core `c` below 2, subcore `i` below 16) through `w = 2 i + c`: the core is the
    block number's parity, the subcore its half. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    have hc := c.isLt
    have hi := i.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit [FloatOps F] in
/-- A separating product over the thirty-two blocks is the product over the two cores of the products over each core's
    sixteen subcores. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]
  rfl

/-! ## The table's rows -/

/-- Row `200 b + k` of the table is row `k` of slab `b` of the three-axis array: both sit at row-major position
    `(200 b + k)·128 + l`. -/
theorem tbl_row (d : Dev nD) (b : Fin 4096) (k : Fin 200) (l : Fin 128) (h : 200 * b.val + k.val < 819200) :
    tbl m d (ix2 ⟨200 * b.val + k.val, h⟩ l) = m (aLoc d) (ix3 b k l) := by
  unfold tbl
  refine shapeCast_apply _ _ _ (ix3 b k l) ?_
  rw [Shape.rowMajor_val_three, Shape.rowMajor_val_two]
  show (b.val * 200 + k.val) * 128 + l.val = (200 * b.val + k.val) * 128 + l.val
  omega

end Cert.Proof.WordGather

end
-- ==== Proof.WordGatherTask.lean ====
/-
  (For the program as printed at the word level; the text is the idealized program's, instance for instance.)
  One task of the gather kernel, at a symbolic grid point. The task's list of row numbers: after the fetch, word `x`
  is index word `base + x` (`base` = 128 times the task's block number); the eight 16-lane additions add
  `200·lane + 200·(base + 16·chunk)` to each lane, that is `200·(base + x)` to word `x` — arithmetic in 32-bit words in
  which, under the precondition, nothing wraps. So word `x` names table row `200·(base + x) + idx (base + x)`, which is
  row `idx (base + x)` of slab `base + x` of the three-axis array: the gathered rows, written to the task's block of the
  result, are the specification's rows.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.Kernel
import proofs.«219289_g10934986736288_week1_w3_421_6_alg».proof.Proof.Gen.Kernel.Skeleton
import proofs.«219289_g10934986736288_week1_w3_421_6_alg».proof.Proof.Spec
import proofs.«219289_g10934986736288_week1_w3_421_6_alg».proof.Proof.WordGatherSetup
import proofs.«219289_g10934986736288_week1_w3_421_6_alg».proof.Proof.WordGatherParts
import Idealize.ShloMosaic.Lib.Pipeline.Value
import Idealize.ShloMosaic.Lib.WritesUnit
import Idealize.ShloMosaic.Lib.ValueIdx

noncomputable section

namespace Cert.Proof.WordGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S4096 EltTy.i32)
local notation "tV" => (Memref.whole Cert.Kernel.main_v0_scv : Memref Cert.Kernel.sig Kind.scVector Space.hbm Cert.Kernel.S819200x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

variable (m : (ℓ : Loc nD τ sig) → Buf (Elt F) ℓ) (ρ : Dev nD → PrngReg)
variable [FloatOps F]

open Idealize.ShloMosaic.ValueIdx

/-! ## The list of row numbers, as the eight lane-wise additions leave it -/

/-- Words of 32 bits are the natural numbers modulo 2³². -/
theorem ofNat_cast (n : ℕ) : BitVec.ofNat 32 n = ((n : ℕ) : BitVec 32) := rfl

/-- The first result row of the task at grid point `L`: 128 times its block number. -/
def base (L : grid0.Coords) : ℕ := 256 * (L 1).val + 128 * (L 0).val

/-- That number as the kernel computes it, in 32-bit words. -/
def w2 (L : grid0.Coords) : BitVec 32 :=
  Scalar.muli (Scalar.addi (Scalar.muli (BitVec.ofNat 32 (L 1).val) 2#32) (BitVec.ofNat 32 (L 0).val)) 128#32

/-- Lane `l` of chunk `c` adds `200·l + 200·(base + c)`, that is 200 times the lane's result row. -/
theorem lane_word (L : grid0.Coords) (c : ℕ) (a : BitVec 32) (l : ℕ) :
    a + (BitVec.ofNat 32 l * 200#32 + ((BitVec.ofNat 32 (L 1).val * 2#32 + BitVec.ofNat 32 (L 0).val) * 128#32 + BitVec.ofNat 32 c) * 200#32)
      = a + BitVec.ofNat 32 (200 * (base L + c + l)) := by
  have h1 : (L 1).val < 16 := (L 1).isLt
  have h0 : (L 0).val < 2 := (L 0).isLt
  apply BitVec.eq_of_toNat_eq
  simp only [BitVec.toNat_add, BitVec.toNat_mul, BitVec.toNat_ofNat, base, Nat.reducePow, Nat.reduceMod]
  omega

theorem iota_lane (h : S16.Iotas .scVector 32 [0]) (l : S16.Idx) : iota .scVector S16 32 [0] h l = BitVec.ofNat 32 (l 0).val := by
  simp [iota]

theorem pay1_apply (L : grid0.Coords) (v : Vec F S16 .i32) (l : S16.Idx) :
    k0_pay1 (F := F) L v l = v l + BitVec.ofNat 32 (200 * (base L + 0 + (l 0).val)) := by
  unfold k0_pay1
  simp only [shapeCast_self, Idealize.ShloMosaic.addi, Idealize.ShloMosaic.muli, broadcast, IntOp.addi, IntOp.muli, Scalar.addi, Scalar.muli]
  rw [iota_lane]
  exact lane_word L 0 (v l) (l 0).val

theorem pay2_apply (L : grid0.Coords) (v : Vec F S16 .i32) (l : S16.Idx) :
    k0_pay2 (F := F) L v l = v l + BitVec.ofNat 32 (200 * (base L + 16 + (l 0).val)) := by
  unfold k0_pay2
  simp only [shapeCast_self, Idealize.ShloMosaic.addi, Idealize.ShloMosaic.muli, broadcast, IntOp.addi, IntOp.muli, Scalar.addi, Scalar.muli]
  rw [iota_lane]
  exact lane_word L 16 (v l) (l 0).val

theorem pay5_apply (L : grid0.Coords) (v : Vec F S16 .i32) (l : S16.Idx) :
    k0_pay5 (F := F) k0_pay3 (k0_pay4 L) v l = v l + BitVec.ofNat 32 (200 * (base L + 32 + (l 0).val)) := by
  unfold k0_pay5 k0_pay3 k0_pay4
  simp only [shapeCast_self, Idealize.ShloMosaic.addi, Idealize.ShloMosaic.muli, broadcast, IntOp.addi, IntOp.muli, Scalar.addi, Scalar.muli]
  rw [iota_lane]
  exact lane_word L 32 (v l) (l 0).val

theorem pay6_apply (L : grid0.Coords) (v : Vec F S16 .i32) (l : S16.Idx) :
    k0_pay6 (F := F) (w2 L) v l = v l + BitVec.ofNat 32 (200 * (base L + 48 + (l 0).val)) := by
  unfold k0_pay6 w2
  simp only [shapeCast_self, Idealize.ShloMosaic.addi, Idealize.ShloMosaic.muli, broadcast, IntOp.addi, IntOp.muli, Scalar.addi, Scalar.muli]
  rw [iota_lane]
  exact lane_word L 48 (v l) (l 0).val

theorem pay7_apply (L : grid0.Coords) (v : Vec F S16 .i32) (l : S16.Idx) :
    k0_pay7 (F := F) (w2 L) v l = v l + BitVec.ofNat 32 (200 * (base L + 64 + (l 0).val)) := by
  unfold k0_pay7 w2
  simp only [shapeCast_self, Idealize.ShloMosaic.addi, Idealize.ShloMosaic.muli, broadcast, IntOp.addi, IntOp.muli, Scalar.addi, Scalar.muli]
  rw [iota_lane]
  exact lane_word L 64 (v l) (l 0).val

theorem pay9_apply (L : grid0.Coords) (v : Vec F S16 .i32) (l : S16.Idx) :
    k0_pay9 (F := F) (k0_pay8 (w2 L)) v l = v l + BitVec.ofNat 32 (200 * (base L + 80 + (l 0).val)) := by
  unfold k0_pay9 k0_pay8 w2
  simp only [shapeCast_self, Idealize.ShloMosaic.addi, Idealize.ShloMosaic.muli, broadcast, IntOp.addi, IntOp.muli, Scalar.addi, Scalar.muli]
  rw [iota_lane]
  exact lane_word L 80 (v l) (l 0).val

theorem pay10_apply (L : grid0.Coords) (v : Vec F S16 .i32) (l : S16.Idx) :
    k0_pay10 (F := F) (w2 L) v l = v l + BitVec.ofNat 32 (200 * (base L + 96 + (l 0).val)) := by
  unfold k0_pay10 w2
  simp only [shapeCast_self, Idealize.ShloMosaic.addi, Idealize.ShloMosaic.muli, broadcast, IntOp.addi, IntOp.muli, Scalar.addi, Scalar.muli]
  rw [iota_lane]
  exact lane_word L 96 (v l) (l 0).val

theorem pay11_apply (L : grid0.Coords) (v : Vec F S16 .i32) (l : S16.Idx) :
    k0_pay11 (F := F) (w2 L) v l = v l + BitVec.ofNat 32 (200 * (base L + 112 + (l 0).val)) := by
  unfold k0_pay11 w2
  simp only [shapeCast_self, Idealize.ShloMosaic.addi, Idealize.ShloMosaic.muli, broadcast, IntOp.addi, IntOp.muli, Scalar.addi, Scalar.muli]
  rw [iota_lane]
  exact lane_word L 112 (v l) (l 0).val

/-- A 16-lane load at offset `c` of the fetched list reads the fetched words `c … c + 15`. -/
theorem ld_hit (c : ℕ) (inb : ∀ a, (![c] : Fin 1 → Nat) a + S16.size a ≤ S128.size a) (fs : (sV).view.ty.Contents (Elt F)) (dma : S128.Idx → Elt F .i32)
    (x : S128.Idx) (h : ∀ a, (![c] : Fin 1 → Nat) a ≤ (x a).val ∧ (x a).val < (![c] : Fin 1 → Nat) a + S16.size a) :
    View.readAt (Elt F) (sV).view (Rect.unit (s := S128) ![c] S16.size inb).toLoadRect (View.write (Elt F) (sV).view fs dma Finset.univ)
      (Rect.unitLocal (s := S128) (off := ![c]) (size := S16.size) x h) = dma x := by
  rw [View.write_whole_univ]
  show dma _ = dma x
  congr 1
  funext a
  match a with
  | ⟨0, _⟩ =>
    apply Fin.ext
    have h0 : c ≤ (x 0).val ∧ (x 0).val < c + 16 := h 0
    show c + 1 * ((x 0).val - c) = (x 0).val
    omega

/-- The eight stored pieces, newest first: chunk `c` holds the fetched words of the chunk plus the lanes' amounts. -/
def pieces (L : grid0.Coords) (fs : (sV).view.ty.Contents (Elt F)) (dma : S128.Idx → Elt F .i32) : List (View.Piece (Elt F) S128 .i32) :=
  [⟨Rect.unit (s := S128) ![112] S16.size inb_S128_S16_112, k0_pay11 (w2 L) (View.readAt (Elt F) (sV).view (Rect.unit (s := S128) ![112] S16.size inb_S128_S16_112).toLoadRect (View.write (Elt F) (sV).view fs dma Finset.univ))⟩,
   ⟨Rect.unit (s := S128) ![96] S16.size inb_S128_S16_96, k0_pay10 (w2 L) (View.readAt (Elt F) (sV).view (Rect.unit (s := S128) ![96] S16.size inb_S128_S16_96).toLoadRect (View.write (Elt F) (sV).view fs dma Finset.univ))⟩,
   ⟨Rect.unit (s := S128) ![80] S16.size inb_S128_S16_80, k0_pay9 (k0_pay8 (w2 L)) (View.readAt (Elt F) (sV).view (Rect.unit (s := S128) ![80] S16.size inb_S128_S16_80).toLoadRect (View.write (Elt F) (sV).view fs dma Finset.univ))⟩,
   ⟨Rect.unit (s := S128) ![64] S16.size inb_S128_S16_64, k0_pay7 (w2 L) (View.readAt (Elt F) (sV).view (Rect.unit (s := S128) ![64] S16.size inb_S128_S16_64).toLoadRect (View.write (Elt F) (sV).view fs dma Finset.univ))⟩,
   ⟨Rect.unit (s := S128) ![48] S16.size inb_S128_S16_48, k0_pay6 (w2 L) (View.readAt (Elt F) (sV).view (Rect.unit (s := S128) ![48] S16.size inb_S128_S16_48).toLoadRect (View.write (Elt F) (sV).view fs dma Finset.univ))⟩,
   ⟨Rect.unit (s := S128) ![32] S16.size inb_S128_S16_32, k0_pay5 k0_pay3 (k0_pay4 L) (View.readAt (Elt F) (sV).view (Rect.unit (s := S128) ![32] S16.size inb_S128_S16_32).toLoadRect (View.write (Elt F) (sV).view fs dma Finset.univ))⟩,
   ⟨Rect.unit (s := S128) ![16] S16.size inb_S128_S16_16, k0_pay2 L (View.readAt (Elt F) (sV).view (Rect.unit (s := S128) ![16] S16.size inb_S128_S16_16).toLoadRect (View.write (Elt F) (sV).view fs dma Finset.univ))⟩,
   ⟨Rect.unit (s := S128) ![0] S16.size inb_S128_S16_0, k0_pay1 L (View.readAt (Elt F) (sV).view (Rect.unit (s := S128) ![0] S16.size inb_S128_S16_0).toLoadRect (View.write (Elt F) (sV).view fs dma Finset.univ))⟩]

/-- After the eight stores, word `x` of the list is the fetched word `x` plus 200 times the task's result row `x`:
    the row of the table where slab `base + x`'s row of that number sits. -/
theorem list_word (L : grid0.Coords) (g fs : (sV).view.ty.Contents (Elt F)) (dma : S128.Idx → Elt F .i32) (x : S128.Idx) :
    View.read (Elt F) (sV).view ((sV).view.writes (Elt F) g (pieces L fs dma)) x = dma x + BitVec.ofNat 32 (200 * (base L + (x 0).val)) := by
  have hx : (x 0).val < 128 := (x 0).isLt
  unfold pieces
  rw [View.read_writes_cons_unit _ _ _ _ _ x rfl]
  split
  · next h =>
    have h0 : 112 ≤ (x 0).val ∧ (x 0).val < 112 + 16 := h 0
    rw [pay11_apply, ld_hit]
    have e : base L + 112 + (Rect.unitLocal (s := S128) (off := ![112]) (size := S16.size) x h 0).val = base L + (x 0).val := by
      rw [Rect.unitLocal_val]; show base L + 112 + ((x 0).val - 112) = _; omega
    rw [e]
  · next h0 =>
    have n0 : ¬ (112 ≤ (x 0).val ∧ (x 0).val < 112 + 16) := fun hh => h0 (fun a => by
      match a with
      | ⟨0, _⟩ => exact hh)
    rw [View.read_writes_cons_unit _ _ _ _ _ x rfl]
    split
    · next h =>
      have h0 : 96 ≤ (x 0).val ∧ (x 0).val < 96 + 16 := h 0
      rw [pay10_apply, ld_hit]
      have e : base L + 96 + (Rect.unitLocal (s := S128) (off := ![96]) (size := S16.size) x h 0).val = base L + (x 0).val := by
        rw [Rect.unitLocal_val]; show base L + 96 + ((x 0).val - 96) = _; omega
      rw [e]
    · next h1 =>
      have n1 : ¬ (96 ≤ (x 0).val ∧ (x 0).val < 96 + 16) := fun hh => h1 (fun a => by
        match a with
        | ⟨0, _⟩ => exact hh)
      rw [View.read_writes_cons_unit _ _ _ _ _ x rfl]
      split
      · next h =>
        have h0 : 80 ≤ (x 0).val ∧ (x 0).val < 80 + 16 := h 0
        rw [pay9_apply, ld_hit]
        have e : base L + 80 + (Rect.unitLocal (s := S128) (off := ![80]) (size := S16.size) x h 0).val = base L + (x 0).val := by
          rw [Rect.unitLocal_val]; show base L + 80 + ((x 0).val - 80) = _; omega
        rw [e]
      · next h2 =>
        have n2 : ¬ (80 ≤ (x 0).val ∧ (x 0).val < 80 + 16) := fun hh => h2 (fun a => by
          match a with
          | ⟨0, _⟩ => exact hh)
        rw [View.read_writes_cons_unit _ _ _ _ _ x rfl]
        split
        · next h =>
          have h0 : 64 ≤ (x 0).val ∧ (x 0).val < 64 + 16 := h 0
          rw [pay7_apply, ld_hit]
          have e : base L + 64 + (Rect.unitLocal (s := S128) (off := ![64]) (size := S16.size) x h 0).val = base L + (x 0).val := by
            rw [Rect.unitLocal_val]; show base L + 64 + ((x 0).val - 64) = _; omega
          rw [e]
        · next h3 =>
          have n3 : ¬ (64 ≤ (x 0).val ∧ (x 0).val < 64 + 16) := fun hh => h3 (fun a => by
            match a with
            | ⟨0, _⟩ => exact hh)
          rw [View.read_writes_cons_unit _ _ _ _ _ x rfl]
          split
          · next h =>
            have h0 : 48 ≤ (x 0).val ∧ (x 0).val < 48 + 16 := h 0
            rw [pay6_apply, ld_hit]
            have e : base L + 48 + (Rect.unitLocal (s := S128) (off := ![48]) (size := S16.size) x h 0).val = base L + (x 0).val := by
              rw [Rect.unitLocal_val]; show base L + 48 + ((x 0).val - 48) = _; omega
            rw [e]
          · next h4 =>
            have n4 : ¬ (48 ≤ (x 0).val ∧ (x 0).val < 48 + 16) := fun hh => h4 (fun a => by
              match a with
              | ⟨0, _⟩ => exact hh)
            rw [View.read_writes_cons_unit _ _ _ _ _ x rfl]
            split
            · next h =>
              have h0 : 32 ≤ (x 0).val ∧ (x 0).val < 32 + 16 := h 0
              rw [pay5_apply, ld_hit]
              have e : base L + 32 + (Rect.unitLocal (s := S128) (off := ![32]) (size := S16.size) x h 0).val = base L + (x 0).val := by
                rw [Rect.unitLocal_val]; show base L + 32 + ((x 0).val - 32) = _; omega
              rw [e]
            · next h5 =>
              have n5 : ¬ (32 ≤ (x 0).val ∧ (x 0).val < 32 + 16) := fun hh => h5 (fun a => by
                match a with
                | ⟨0, _⟩ => exact hh)
              rw [View.read_writes_cons_unit _ _ _ _ _ x rfl]
              split
              · next h =>
                have h0 : 16 ≤ (x 0).val ∧ (x 0).val < 16 + 16 := h 0
                rw [pay2_apply, ld_hit]
                have e : base L + 16 + (Rect.unitLocal (s := S128) (off := ![16]) (size := S16.size) x h 0).val = base L + (x 0).val := by
                  rw [Rect.unitLocal_val]; show base L + 16 + ((x 0).val - 16) = _; omega
                rw [e]
              · next h6 =>
                have n6 : ¬ (16 ≤ (x 0).val ∧ (x 0).val < 16 + 16) := fun hh => h6 (fun a => by
                  match a with
                  | ⟨0, _⟩ => exact hh)
                rw [View.read_writes_cons_unit _ _ _ _ _ x rfl]
                split
                · next h =>
                  have h0 : 0 ≤ (x 0).val ∧ (x 0).val < 0 + 16 := h 0
                  rw [pay1_apply, ld_hit]
                  have e : base L + 0 + (Rect.unitLocal (s := S128) (off := ![0]) (size := S16.size) x h 0).val = base L + (x 0).val := by
                    rw [Rect.unitLocal_val]; show base L + 0 + ((x 0).val - 0) = _; omega
                  rw [e]
                · next h7 =>
                  have n7 : ¬ (0 ≤ (x 0).val ∧ (x 0).val < 0 + 16) := fun hh => h7 (fun a => by
                    match a with
                    | ⟨0, _⟩ => exact hh)
                  exfalso; omega

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The block the task at grid point `L` works on. -/
def wL (L : grid0.Coords) : Fin 32 := ⟨2 * (L 1).val + (L 0).val, by
  have h0 : (L 0).val < 2 := (L 0).isLt
  have h1 : (L 1).val < 16 := (L 1).isLt
  omega⟩
theorem wL_val (L : grid0.Coords) : (wL L).val = 2 * (L 1).val + (L 0).val := rfl

abbrev irowK (L : grid0.Coords) : Rect S4096 := Rect.unit (s := S4096) (k0_off1 L) S128.size (k0_off1_inb L)
abbrev orowK (L : grid0.Coords) : Rect S4096x128 := Rect.unit (s := S4096x128) (k0_off2 L) S128x128.size (k0_off2_inb L)
/-- The task's block of index words, its block of result rows and the whole table, as the task addresses them. -/
abbrev iRowK (L : grid0.Coords) : Memref sig .scVector .hbm S128 .i32 := (iV).slice (irowK L) (fun _ => rfl)
abbrev oRowK (L : grid0.Coords) : Memref sig .scVector .hbm S128x128 .f32 := (oV).slice (orowK L) (fun _ => rfl)
abbrev tAllK : Memref sig .scVector .hbm S819200x128 .f32 := (tV).slice (Rect.unit (s := S819200x128) ![0, 0] S819200x128.size inb_S819200x128_S819200x128_0_0) (fun _ => rfl)

theorem irowK_eq : irowK L = irow (wL L) := by
  unfold irowK irow Rect.part Rect.block
  congr 1 <;> funext a
  · rw [k0_off1_eq]
    match a with
    | 0 => simp [Shape.partIx, Shape.partSize, wL_val]; omega
  · match a with
    | 0 => simp [Shape.partSize]
theorem orowK_eq : orowK L = orow (wL L) := by
  unfold orowK orow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the gathered rows are -/

/-- The fetched list: the task's 128 index words. -/
abbrev fetched (d : Dev nD) (L : grid0.Coords) : S128.Idx → Elt F .i32 :=
  ReadAs.same.apply (View.read (Elt F) (iRowK L).view (m (iLoc d)))

/-- Word `x` of the task's block is index word `base + x`. -/
theorem iRowK_emb (x : S128.Idx) : (iRowK L).view.emb x = (ix1 ⟨base L + (x 0).val, by
    have h1 : (L 1).val < 16 := (L 1).isLt
    have h0 : (L 0).val < 2 := (L 0).isLt
    have hx : (x 0).val < 128 := (x 0).isLt
    unfold base; omega⟩ : S4096.Idx) := by
  funext a
  match a with
  | ⟨0, _⟩ =>
    apply Fin.ext
    show (k0_off1 L) 0 + 1 * (x 0).val = base L + (x 0).val
    rw [k0_off1_eq]
    simp [base]

omit [FloatOps F] in
theorem fetched_apply (x : S128.Idx) : fetched m d L x = m (iLoc d) ((iRowK L).view.emb x) :=
  (View.read_apply _ _).trans (cast_eq _ _)

omit [FloatOps F] in
/-- Under the precondition the word the list ends with is the index word plus 200 times the result row, as natural numbers:
    nothing wraps, the sum stays below 819200. -/
theorem word_toNat (hpre : PreOK m) (x : S128.Idx) :
    (fetched m d L x + BitVec.ofNat 32 (200 * (base L + (x 0).val))).toNat = (fetched m d L x).toNat + 200 * (base L + (x 0).val) := by
  have h1 : (L 1).val < 16 := (L 1).isLt
  have h0 : (L 0).val < 2 := (L 0).isLt
  have hx : (x 0).val < 128 := (x 0).isLt
  have hf : (fetched m d L x).toNat < 200 := by rw [fetched_apply]; exact hpre d _
  simp only [BitVec.toNat_add, BitVec.toNat_ofNat, Nat.reducePow, base] at hf ⊢
  omega

/-- Every row number the list names is a row of the table. -/
theorem list_inb (hpre : PreOK m) (g fs : (sV).view.ty.Contents (Elt F)) (x : S128.Idx) :
    (View.read (Elt F) (sV).view ((sV).view.writes (Elt F) g (pieces L fs (fetched m d L))) x).toNat
      < S819200x128.size gathers_S819200x128_S128x128.axis := by
  have h1 : (L 1).val < 16 := (L 1).isLt
  have h0 : (L 0).val < 2 := (L 0).isLt
  have hx : (x 0).val < 128 := (x 0).isLt
  have hf : (fetched m d L x).toNat < 200 := by rw [fetched_apply]; exact hpre d _
  rw [list_word, word_toNat m d L hpre]
  show _ < 819200
  unfold base; omega

/-- Result row `base + p`, element `q`, as the task addresses its block of the result. -/
theorem oRowK_emb (p q : Fin 128) : (oRowK L).view.emb (ix2 p q) = (ix2 ⟨base L + p.val, by
    have h1 : (L 1).val < 16 := (L 1).isLt
    have h0 : (L 0).val < 2 := (L 0).isLt
    unfold base; omega⟩ q : S4096x128.Idx) := by
  funext a
  match a with
  | ⟨0, _⟩ =>
    apply Fin.ext
    show (k0_off2 L) 0 + 1 * p.val = base L + p.val
    rw [k0_off2_eq]
    simp [base]
  | ⟨1, _⟩ =>
    apply Fin.ext
    show (k0_off2 L) 1 + 1 * q.val = q.val
    rw [k0_off2_eq]
    simp

/-- The gathered element `(p, q)`: the list's word `p` is `idx (base + p) + 200·(base + p)`, the table's row of that
    number is row `idx (base + p)` of slab `base + p` — the specification's row `base + p`. -/
theorem out_value (hpre : PreOK m) (fs : (sV).view.ty.Contents (Elt F))
    (hn : S128.numel = S128x128.size gathers_S819200x128_S128x128.axis')
    (hin : ∀ x, (View.read (Elt F) (sV).view ((sV).view.writes (Elt F) (sV).view.junk (pieces L fs (fetched m d L))) x).toNat
      < S819200x128.size gathers_S819200x128_S128x128.axis)
    (y : S128x128.Idx) :
    SparseCore.gatherPayload gathers_S819200x128_S128x128 (View.read (Elt F) (tAllK).view (tbl m d))
        (SparseCore.rows (View.read (Elt F) (sV).view ((sV).view.writes (Elt F) (sV).view.junk (pieces L fs (fetched m d L)))) hn hin) y
      = res m d ((oRowK L).view.emb y) := by
  obtain ⟨p, q, rfl⟩ : ∃ (p : Fin 128) (q : Fin 128), y = ix2 p q := ⟨y 0, y 1, eq_ix2 y⟩
  have h1 : (L 1).val < 16 := (L 1).isLt
  have h0 : (L 0).val < 2 := (L 0).isLt
  have hb : base L + p.val < 4096 := by unfold base; omega
  -- the list's entry for destination row `p`
  let x : S128.Idx := S128.rowMajor.symm ((((ix2 p q : S128x128.Idx) gathers_S819200x128_S128x128.axis')).cast hn.symm)
  have hx0 : (x 0).val = p.val := by
    have e := congrArg Fin.val (S128.rowMajor.apply_symm_apply ((((ix2 p q : S128x128.Idx) gathers_S819200x128_S128x128.axis')).cast hn.symm))
    rw [Shape.rowMajor_val_one] at e
    exact e
  have hxe : (iRowK L).view.emb x = (ix1 ⟨base L + p.val, hb⟩ : S4096.Idx) := by
    rw [iRowK_emb]; exact congrArg ix1 (Fin.ext (by show base L + (x 0).val = base L + p.val; rw [hx0]))
  have hk : (m (iLoc d) (ix1 ⟨base L + p.val, hb⟩)).toNat < 200 := hpre d _
  have hword : (View.read (Elt F) (sV).view ((sV).view.writes (Elt F) (sV).view.junk (pieces L fs (fetched m d L))) x).toNat
      = 200 * (base L + p.val) + (m (iLoc d) (ix1 ⟨base L + p.val, hb⟩)).toNat := by
    rw [list_word, word_toNat m d L hpre, fetched_apply, hxe, hx0]; omega
  rw [oRowK_emb]
  unfold res
  rw [Cert.Proof.Spec.pick_apply (m (aLoc d)) (m (iLoc d)) ⟨base L + p.val, hb⟩ q hk]
  rw [← tbl_row m d ⟨base L + p.val, hb⟩ ⟨(m (iLoc d) (ix1 ⟨base L + p.val, hb⟩)).toNat, hk⟩ q (by show 200 * (base L + p.val) + _ < 819200; omega)]
  unfold SparseCore.gatherPayload
  refine ((View.read_apply _ _).trans (cast_eq _ _)).trans (congrArg (tbl m d) ?_)
  funext a
  match a with
  | ⟨0, _⟩ =>
    apply Fin.ext
    show 0 + 1 * ((gathers_S819200x128_S128x128).idx _ (ix2 p q) 0).val = 200 * (base L + p.val) + (m (iLoc d) (ix1 ⟨base L + p.val, hb⟩)).toNat
    rw [show ((gathers_S819200x128_S128x128).idx (SparseCore.rows (View.read (Elt F) (sV).view ((sV).view.writes (Elt F) (sV).view.junk (pieces L fs (fetched m d L)))) hn hin) (ix2 p q) 0)
        = SparseCore.rows (View.read (Elt F) (sV).view ((sV).view.writes (Elt F) (sV).view.junk (pieces L fs (fetched m d L)))) hn hin ((ix2 p q : S128x128.Idx) gathers_S819200x128_S128x128.axis')
      from Shape.Gathers.idx_axis _ _ _]
    show 0 + 1 * (View.read (Elt F) (sV).view ((sV).view.writes (Elt F) (sV).view.junk (pieces L fs (fetched m d L))) x).toNat = _
    rw [hword]; omega
  | ⟨1, _⟩ =>
    apply Fin.ext
    show 0 + 1 * ((gathers_S819200x128_S128x128).idx _ (ix2 p q) 1).val = q.val
    rw [Shape.Gathers.idx_of_ne _ _ _ 1 (by decide)]
    show 0 + 1 * q.val = q.val
    omega

set_option maxHeartbeats 4000000 in
/-- The task on vector subcore `(L 0, L 1)` of device `d`: the fetch of its index words and its wait, the eight lane-wise
    additions, the gather of the table rows the list then names and its wait, the write-out of the rows and its wait;
    what it leaves in its block of the result is the specification's block. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (wL L) ∗ tShPts m d (wL L) ∗ oRowPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tV (Memref.isWhole_whole _) iV (Memref.isWhole_whole _) oV (Memref.isWhole_whole _)
            sV (Memref.isWhole_whole _) rV (Memref.isWhole_whole _) cc0_scratch2 cc0_scoped0 cc0_scoped1)
          fun _ => iprop((iRowPts m d (wL L) ∗ tShPts m d (wL L) ∗ oRowPts d (wL L) (res m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  simp only [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  -- the fetch, its wait, the eight additions: up to the gather's issue
  sl_exec
  -- the list as the additions left it: every word a row of the table
  have hin : ∀ x, (View.read (Elt F) (sV).view ((sV).view.writes (Elt F) (sV).view.junk (tile_body.sl.Hs'_8 m d L fs)) x).toNat
      < S819200x128.size gathers_S819200x128_S128x128.axis :=
    fun x => list_inb m d L hpre (sV).view.junk fs x
  -- the gather, its wait, the write-out, its wait
  sl_exec
  sl_step
  -- what the block of the result holds is the specification's block
  have hval : ∀ i ∈ (oRowK L).view.set,
      (oRowK L).view.writes (Elt F) (m (oLoc d)) [⟨Rect.whole S128x128, tile_body.sl.dma0_1 m d L fs fr hin⟩] i = res m d i := by
    intro i hi
    obtain ⟨y, -, rfl⟩ := Finset.mem_map.mp hi
    have e1 : (oRowK L).view.writes (Elt F) (m (oLoc d)) [⟨Rect.whole S128x128, tile_body.sl.dma0_1 m d L fs fr hin⟩] ((oRowK L).view.emb y)
        = tile_body.sl.dma0_1 m d L fs fr hin y :=
      (((View.read_apply _ _).trans (cast_eq _ _)).symm).trans (congrFun (View.read_writes_whole (oRowK L).view (m (oLoc d)) _) y)
    have e2 : tile_body.sl.dma0_1 m d L fs fr hin y = tile_body.sl.gather0 m d L fs hin y :=
      congrFun (View.read_writes_whole (rV).view fr (tile_body.sl.gather0 m d L fs hin)) y
    rw [e1, e2]
    exact out_value m d L hpre fs _ hin y
  ihave Ho2 := (Entails.of_eq (pointsTo_congr hval)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The block of the task the launch dispatches to vector subcore `i` of SparseCore `c` is the block of its grid point. -/
theorem wid_coords (c : Fin ((K (F := F)).nCore 0)) (i : Fin ((K (F := F)).nSub 0)) (h0 : c.val < grid0.bound 0) (h1 : i.val < grid0.bound 1) :
    wid (Fin.cast nCore_zero c) (Fin.cast nSub_zero i) = wL (coordsV ⟨c.val, h0⟩ ⟨i.val, h1⟩) := Fin.ext rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ goW m d (wid (Fin.cast nCore_zero c) (Fin.cast nSub_zero i)) ∗ _ ∗ _ ∗ _) ⊢ wp _ _ _ _ (fun _ => iprop(tdW m d (wid (Fin.cast nCore_zero c) (Fin.cast nSub_zero i)) ∗ _ ∗ _ ∗ _))
  rw [wid_coords c i hci.1 hci.2]
  exact (tile_body m d (coordsV ⟨_, hci.1⟩ ⟨_, hci.2⟩) hF hpre O W hO).trans (wp_mono frame _ _ fun _ => obl_post)

end Tile

end Cert.Proof.WordGather

end
-- ==== Proof.WordGatherLaunch.lean ====
/-
  (For the program as printed at the word level; the text is the idealized program's, instance for instance.)
  The launch of the gather kernel: a SparseCore's operands are its sixteen tasks' parts; @main on the TensorCore lays out
  the table (the three-axis array's rows in row-major order), hands every task its block of index words, a read share of
  the table and its block of the result, and gets the result back whole, at the specification; the run of the whole
  family of threads follows from the library's launch theorem.
-/
import proofs.«219289_g10934986736288_week1_w3_421_6_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219289_g10934986736288_week1_w3_421_6_alg».proof.Proof.Gen.Kernel
import proofs.«219289_g10934986736288_week1_w3_421_6_alg».proof.Proof.Gen.Kernel.Skeleton
import proofs.«219289_g10934986736288_week1_w3_421_6_alg».proof.Proof.Spec
import proofs.«219289_g10934986736288_week1_w3_421_6_alg».proof.Proof.WordGatherTask

noncomputable section

namespace Cert.Proof.WordGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S4096 EltTy.i32)
local notation "tV" => (Memref.whole Cert.Kernel.main_v0_scv : Memref Cert.Kernel.sig Kind.scVector Space.hbm Cert.Kernel.S819200x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

variable (m : (ℓ : Loc nD τ sig) → Buf (Elt F) ℓ) (ρ : Dev nD → PrngReg)

variable [FloatOps F]

/-! ## A SparseCore's operands are its sixteen tasks' -/

theorem vecSplit : (K (F := F)).VecSplit' (P m) 0 := by
  intro d c
  show (bigSep Finset.univ fun i : Fin 16 => goW m d (wid (Fin.cast nCore_zero c) i)) ⊢ |={Set.univ}=> iprop(
      (bigSep Finset.univ fun i : Fin ((K (F := F)).nSub 0) => goW m d (wid (Fin.cast nCore_zero c) (Fin.cast nSub_zero i)))
      ∗ ((bigSep Finset.univ fun i : Fin ((K (F := F)).nSub 0) => tdW m d (wid (Fin.cast nCore_zero c) (Fin.cast nSub_zero i)))
          -∗ bigSep Finset.univ fun i : Fin 16 => tdW m d (wid (Fin.cast nCore_zero c) i)))
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- @main's one host operation: the three-axis array re-laid as the table. -/
abbrev opRs : HloOp τ sig (Elt F) := StableHlo.reshape main_arg0 main_v0 rfl shapeCasts_S4096x200x128_S819200x128

/-- The TensorCore's four arrays, all unscoped. -/
abbrev S4 : Finset (DevRef τ sig) := {a', i', t', o'}

omit [FloatOps F] in
theorem held_S4 (d : Dev nD) (W : Valuation τ sig (Elt F)) :
    (held (T d) S4 W : sProp 𝕄)
      = iprop((aLoc d ↦{fullShare} W a') ∗ (iLoc d ↦{fullShare} W i') ∗ (tLoc d ↦{fullShare} W t') ∗ (oLoc d ↦{fullShare} W o')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (iLoc d ↦{fullShare} W main_arg1) ∗ (tLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hRs : (opRs (F := F)).bufs ⊆ S4 := show ({a', t'} : Finset (DevRef τ sig)) ⊆ S4 by decide

theorem V1_a (d : Dev nD) : (opRs (F := F)).result (V0 m d) a' = m (aLoc d) :=
  (opRs (F := F)).result_of_not_mem _ (show a' ∉ ({t'} : Finset (DevRef τ sig)) by decide)
theorem V1_i (d : Dev nD) : (opRs (F := F)).result (V0 m d) i' = m (iLoc d) :=
  (opRs (F := F)).result_of_not_mem _ (show i' ∉ ({t'} : Finset (DevRef τ sig)) by decide)
theorem V1_o (d : Dev nD) : (opRs (F := F)).result (V0 m d) o' = m (oLoc d) :=
  (opRs (F := F)).result_of_not_mem _ (show o' ∉ ({t'} : Finset (DevRef τ sig)) by decide)
/-- After the host operation the table holds the three-axis array's rows. -/
theorem V1_t (d : Dev nD) : (opRs (F := F)).result (V0 m d) t' = tbl m d :=
  StableHlo.reshape_result main_arg0 main_v0 rfl shapeCasts_S4096x200x128_S819200x128 ⟨by decide, rfl⟩ ⟨by decide, rfl⟩ (V0 m d)

theorem held_V1 (d : Dev nD) :
    (held (T d) S4 ((opRs (F := F)).result (V0 m d)) : sProp 𝕄)
      = iprop((aLoc d ↦{fullShare} m (aLoc d)) ∗ (iLoc d ↦{fullShare} m (iLoc d)) ∗ (tLoc d ↦{fullShare} tbl m d) ∗ (oLoc d ↦{fullShare} m (oLoc d))) := by
  rw [held_S4, V1_a, V1_i, V1_o, V1_t]

/-- The handshakes' two ends of the call, over the thirty-two blocks. -/
theorem st0_eq (d : Dev nD) : (bigSep Finset.univ fun c : Fin ((K (F := F)).nCore 0) => (P m).st 0 d c) = bigSep Finset.univ fun w : Fin 32 => goW m d w := by
  rw [bigSep_blocks (F := F) (fun w => goW m d w)]; rfl
theorem dn0_eq (d : Dev nD) : (bigSep Finset.univ fun c : Fin ((K (F := F)).nCore 0) => (P m).dn 0 d c) = bigSep Finset.univ fun w : Fin 32 => tdW m d w := by
  rw [bigSep_blocks (F := F) (fun w => tdW m d w)]; rfl

/-- What @main leaves the claim: the two arguments at their launch contents, the result at the specification. -/
abbrev FIN (d : Dev nD) : sProp 𝕄 := iprop((aLoc d ↦{fullShare} m (aLoc d)) ∗ (iLoc d ↦{fullShare} m (iLoc d)) ∗ (oLoc d ↦{fullShare} res m d))

/-- @main on device `d`'s TensorCore: the host operation that lays out the table; then the call, handing every task its
    block of index words, a read share of the table and its block of the result, and getting the blocks back at the
    specification's values. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hi, Ht, Ho⟩
  -- the index words and the result by blocks, the table by read shares
  ihave Hi2 := (Entails.of_eq (iPts_rows (F := F) d (m (iLoc d)))) $$ Hi
  ihave Ho2 := (Entails.of_eq (oPts_rows (F := F) d (m (oLoc d)))) $$ Ho
  ihave Ht2 := (Transfers.pointsTo_toks_split (ℓ := tLoc d) (S := Finset.univ) (f := tbl m d) fullShare 32) $$ Ht
  icases Ht2 with ⟨Htr, Ht2⟩
  iapply ((K (F := F)).wp_run (D (F := F)) 𝒱 (EH := EH) (P := P m) κ d 0) $$ [Hst Hi2 Ht2 Ho2 Ha Htr Hb]
  isplitr; · iexact Hctx
  isplitl [Hst]; · iexact Hst
  isplitl [Hi2 Ht2 Ho2]
  · rw [st0_eq, bigSep_sep', bigSep_sep']
    isplitl [Hi2]; · iexact Hi2
    isplitl [Ht2]; · iexact Ht2
    iexact Ho2
  iintro ⟨Hst, Hdn⟩
  ihave Hdn' := (Entails.of_eq ((dn0_eq m d).trans ((bigSep_sep' _ _ _).trans (congrArg _ (bigSep_sep' _ _ _))))) $$ Hdn
  icases Hdn' with ⟨Hi2, Ht2, Ho2⟩
  ihave Hi := (Entails.of_eq (iPts_rows (F := F) d (m (iLoc d))).symm) $$ Hi2
  ihave Ho := (Entails.of_eq (oPts_rows (F := F) d (res m d)).symm) $$ Ho2
  imodintro
  isplitl [Hst]; · iexact Hst
  isplitl [Ha]; · iexact Ha
  isplitl [Hi]; · iexact Hi
  iexact Ho

def fq (d : Dev nD) (s' : Phys nD τ sig (Elt F)) : Prop :=
  s'.mem.mem (oLoc d) = res m d ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro; exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = res m c ∧ r.2.mem (aLoc c) = m (aLoc c) ∧ r.2.mem (iLoc c) = m (iLoc c)

/-- Every weakly fair execution of the thirty-five threads ends, nothing faulting, with the result at the specification
    and the two arguments unchanged — when every index word names a row of its slab. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.WordGather

end
-- ==== Proof.RefSide.lean ====
import proofs.«219289_g10934986736288_week1_w3_421_6_alg».proof.Defs
import proofs.«219289_g10934986736288_week1_w3_421_6_alg».proof.Proof.Gen.ReferenceIdeal
import proofs.«219289_g10934986736288_week1_w3_421_6_alg».proof.Proof.Gen.ReferenceIdeal.Run
import proofs.«219289_g10934986736288_week1_w3_421_6_alg».proof.Proof.Gen.ReferenceIdeal.Read
import proofs.«219289_g10934986736288_week1_w3_421_6_alg».proof.Proof.Gen.Pre_input_domain
import proofs.«219289_g10934986736288_week1_w3_421_6_alg».proof.Proof.Spec
import Idealize.ShloMosaic.Lib.ValueIdx
import Idealize.ShloMosaic.Lib.Pipeline.Value
import Idealize.ShloMosaic.Lib.StableHlo.Run
import Idealize.ShloMosaic.Lib.ReduceAll

noncomputable section

namespace Cert.Proof.RefSide

open Idealize.ShloMosaic Idealize.ShloMosaic.ValueIdx Idealize.SL.Sem

/-! ## The index words are below 200 under the precondition -/

/-- The scalar shape has one index. -/
local instance : Subsingleton Cert.Pre_input_domain.S_.Idx := ⟨fun _ _ => funext fun d => d.elim0⟩

/-- A 32-bit word that is at least 0 and at most 199 as a SIGNED number is below 200 as a natural number. -/
theorem toNat_lt_of_signed_range (v : BitVec 32) (h0 : IntOp.cmpi .sge v 0#32 = 1#1) (h1 : IntOp.cmpi .sle v 199#32 = 1#1) :
    v.toNat < 200 := by
  rw [IntOp.cmpi_sge] at h0
  rw [IntOp.cmpi_sle] at h1
  rw [show (0#32 : BitVec 32).toInt = 0 from by decide] at h0
  rw [show (199#32 : BitVec 32).toInt = 199 from by decide] at h1
  rw [BitVec.toInt_eq_toNat_cond] at h0 h1
  have := v.isLt
  split at h0 <;> omega

/-- The precondition's second half is "every index word lies in [0, 199], read signed"; so every index word, read as a
    natural number, is below 200. -/
theorem idx_lt_of_pre {F : FTy → Type} [FloatOps F] (a0 : FVec F Cert.Pre_input_domain.S4096x200x128 .f32) (a1 : IVec Cert.Pre_input_domain.S4096 32)
    (h : Cert.Pre_input_domain.fn (F := F) a0 a1 = fun _ => 1#1) : ∀ b : Cert.Pre_input_domain.S4096.Idx, (a1 b).toNat < 200 := by
  intro b
  have h0 := congrFun h ix0
  dsimp only [Cert.Pre_input_domain.fn] at h0
  obtain ⟨-, h2⟩ := IntOp.andi_eq_one.1 h0
  have hb := Host.reduce_andi_all _ _ _ _ ix0 h2 b
  obtain ⟨hge, hle⟩ := IntOp.andi_eq_one.1 hb
  exact toNat_lt_of_signed_range (a1 b) hge hle

/-! ## The reference's gather, read at an index -/

open Cert.ReferenceIdeal Cert.ReferenceIdeal.Gen

/-- Two rank-3 indices with the same coordinates (as numbers) are the same index. -/
theorem ix3_congr {n0 n1 n2 : Nat} (a a' : Fin n0) (b b' : Fin n1) (c : Fin n2) (ha : a.val = a'.val) (hb : b.val = b'.val) :
    ix3 a b c = ix3 a' b' c := by
  rw [Fin.ext ha, Fin.ext hb]

/-- The gather's dimension numbers: operand `[4096, 200, 128]`, start indices `[4096, 2]` (one pair per result row),
    operand axes 0 and 1 collapsed and named by the pair, axis 2 the one offset axis. -/
local notation "gd" => gather_S4096x200x128_S4096x2_S4096x128_1_01_n_n_01_1_11128

/-- Operand axis 0: the first word of pair `j 0`, read signed and clamped into `[0, 4095]`. -/
theorem operandIdx_0 (idx : IVec S4096x2 32) (j : S4096x128.Idx) :
    ((gd).operandIdx j idx (0 : Fin 3)).val = min (idx (ix2 (j 0) 0)).toInt.toNat 4095 := by
  show (gd).start j idx (0 : Fin 3) + (gd).batchCoord j (0 : Fin 3) + (gd).offCoord j (0 : Fin 3) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ (gd).startIndexMap from by decide)]
  have hsi : (gd).siIdx j ⟨List.idxOf (0 : Fin 3) (gd).startIndexMap, List.idxOf_lt_length_iff.2 (by decide)⟩
      = ix2 (j 0) 0 := by
    funext b; refine Fin.ext ?_
    match b with
    | ⟨0, _⟩ => rfl
    | ⟨1, _⟩ => rfl
  rw [hsi]
  rfl

/-- Operand axis 1: the second word of pair `j 0`, read signed and clamped into `[0, 199]`. -/
theorem operandIdx_1 (idx : IVec S4096x2 32) (j : S4096x128.Idx) :
    ((gd).operandIdx j idx (1 : Fin 3)).val = min (idx (ix2 (j 0) 1)).toInt.toNat 199 := by
  show (gd).start j idx (1 : Fin 3) + (gd).batchCoord j (1 : Fin 3) + (gd).offCoord j (1 : Fin 3) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ (gd).startIndexMap from by decide)]
  have hsi : (gd).siIdx j ⟨List.idxOf (1 : Fin 3) (gd).startIndexMap, List.idxOf_lt_length_iff.2 (by decide)⟩
      = ix2 (j 0) 1 := by
    funext b; refine Fin.ext ?_
    match b with
    | ⟨0, _⟩ => rfl
    | ⟨1, _⟩ => rfl
  rw [hsi]
  rfl

/-- Operand axis 2 is the offset axis: the result's second coordinate. -/
theorem operandIdx_2 (idx : IVec S4096x2 32) (j : S4096x128.Idx) :
    ((gd).operandIdx j idx (2 : Fin 3)).val = (j 1).val := by
  show (gd).start j idx (2 : Fin 3) + (gd).batchCoord j (2 : Fin 3) + (gd).offCoord j (2 : Fin 3) = _
  have hst : (gd).start j idx (2 : Fin 3) = 0 := by
    unfold GatherDims.start
    rw [dif_neg (show (2 : Fin 3) ∉ (gd).startIndexMap from by decide)]
  rw [GatherDims.batchCoord_eq_zero _ _ _ List.not_mem_nil, hst]
  simp only [Nat.add_zero, Nat.zero_add]
  unfold GatherDims.offCoord
  rw [dif_pos (show (2 : Fin 3) ∈ (gd).sKept from by decide)]
  rfl

/-- THE GATHER READ AT `(b, l)`: result element `(b, l)` is the operand at `(p, q, l)` where `p` and `q` are the two
    words of pair `b` of the start indices, read signed and clamped into `[0, 4095]` and `[0, 199]`. -/
theorem gather_apply {α : Type} (x : S4096x200x128.Idx → α) (idx : IVec S4096x2 32) (j : S4096x128.Idx) :
    Host.gather gd x idx j =
      x (ix3 (n0 := 4096) (n1 := 200) ⟨min (idx (ix2 (j 0) 0)).toInt.toNat 4095, by omega⟩
        ⟨min (idx (ix2 (j 0) 1)).toInt.toNat 199, by omega⟩ (j 1)) := by
  unfold Host.gather
  congr 1
  funext a
  match a with
  | ⟨0, _⟩ => exact Fin.ext (operandIdx_0 idx j)
  | ⟨1, _⟩ => exact Fin.ext (operandIdx_1 idx j)
  | ⟨2, _⟩ => exact Fin.ext (operandIdx_2 idx j)

/-! ## The two "negative index wraps" selects are the identity on nonnegative words -/

/-- `select(v < 0, v + k, v)` (compared signed) is `v` for a word whose top bit is clear. -/
theorem wrap_eq_self (v k : BitVec 32) (hv : 2 * v.toNat < 2 ^ 32) :
    Scalar.select (IntOp.cmpi .slt v 0#32) (IntOp.addi v k) v = v := by
  unfold Scalar.select
  rw [if_neg]
  intro h
  have h' := IntOp.cmpi_slt.1 h
  rw [BitVec.toInt_eq_toNat_of_lt hv, show (0#32 : BitVec 32).toInt = 0 from by decide] at h'
  omega

/-- A word whose top bit is clear reads the same signed and unsigned. -/
theorem toInt_toNat_of_small (v : BitVec 32) (hv : 2 * v.toNat < 2 ^ 32) : v.toInt.toNat = v.toNat := by
  rw [BitVec.toInt_eq_toNat_of_lt hv]
  exact Int.toNat_natCast _

/-- A row number below 4096 as a 32-bit word is that number. -/
theorem toNat_ofNat_row (b : Fin 4096) : (BitVec.ofNat 32 b.val).toNat = b.val := by
  rw [BitVec.toNat_ofNat]
  have := b.isLt
  omega

/-- The pair array's first column at row `b` is the row number `b`: the wrap of the iota is the iota. -/
theorem pairs_fst (x1 : (⟨S4096, .i32⟩ : BufTy).Contents (Elt Ideal)) (b : Fin 4096) :
    Read.val_main_v13 (F := Ideal) x1 (ix2 b 0) = BitVec.ofNat 32 b.val := by
  unfold Read.val_main_v13
  rw [concatenate_pair_apply_left (t := S4096x2) (s₁ := S4096x1) (s₂ := S4096x1) (1 : Fin 2) _ _ _ (ix2 b (0 : Fin 2)) rfl (ix2 b (0 : Fin 1))
    (fun c => match c with | ⟨0, _⟩ => rfl | ⟨1, _⟩ => rfl)]
  rw [Read.val_main_v11_apply, Read.val_main_v5_apply, Read.val_main_v2_apply, Read.val_main_v4_apply,
    Read.val_main_v0_apply, Read.val_main_v1_apply, Read.val_main_v3_apply, Read.val_main_c_apply, Read.val_main_c_0_apply]
  refine wrap_eq_self _ _ ?_
  show 2 * (BitVec.ofNat 32 b.val).toNat < 2 ^ 32
  rw [toNat_ofNat_row]
  have := b.isLt
  omega

/-- The pair array's second column at row `b` is the index word of row `b`, when that word's top bit is clear: its
    wrap is itself. -/
theorem pairs_snd (x1 : (⟨S4096, .i32⟩ : BufTy).Contents (Elt Ideal)) (b : Fin 4096) (hv : 2 * (x1 (ix1 b)).toNat < 2 ^ 32) :
    Read.val_main_v13 (F := Ideal) x1 (ix2 b 1) = x1 (ix1 b) := by
  unfold Read.val_main_v13
  rw [concatenate_pair_apply_right (t := S4096x2) (s₁ := S4096x1) (s₂ := S4096x1) (1 : Fin 2) _ _ _ (ix2 b (1 : Fin 2)) rfl rfl (ix2 b (0 : Fin 1))
    (fun c => match c with | ⟨0, _⟩ => fun _ => rfl | ⟨1, _⟩ => fun h => absurd rfl h) rfl]
  rw [Read.val_main_v12_apply, Read.val_main_v10_apply, Read.val_main_v7_apply, Read.val_main_v9_apply,
    Read.val_main_v6_apply, Read.val_main_v8_apply, Read.val_main_c_1_apply, Read.val_main_c_2_apply]
  have e : Read.idx_main_v12 (ix2 b (0 : Fin 1)) = ix1 b := by
    funext a
    match a with
    | ⟨0, _⟩ => rfl
  rw [e]
  exact wrap_eq_self _ _ hv

/-- THE REFERENCE'S RESULT IS THE SPECIFICATION: with every index word below 200, the gather at the pairs
    (row number, index word) is `result[b, l] = seq[b, idx[b], l]`. -/
theorem val_eq_pick (x0 : (⟨S4096x200x128, .f32⟩ : BufTy).Contents (Elt Ideal)) (x1 : (⟨S4096, .i32⟩ : BufTy).Contents (Elt Ideal))
    (hidx : ∀ b, (x1 b).toNat < 200) : Read.val_main_v14 (F := Ideal) x0 x1 = Cert.Proof.Spec.pick x0 x1 := by
  funext j
  obtain ⟨b, l, rfl⟩ : ∃ b l, j = ix2 b l := ⟨j 0, j 1, eq_ix2 j⟩
  have hb := hidx (ix1 b)
  have hsm : 2 * (x1 (ix1 b)).toNat < 2 ^ 32 := by omega
  unfold Read.val_main_v14
  rw [gather_apply, Cert.Proof.Spec.pick_apply x0 x1 b l hb]
  refine congrArg x0 (ix3_congr _ _ _ _ _ ?_ ?_)
  · show min (Read.val_main_v13 (F := Ideal) x1 (ix2 b 0)).toInt.toNat 4095 = b.val
    rw [pairs_fst, toInt_toNat_of_small _ (by rw [toNat_ofNat_row]; have := b.isLt; omega), toNat_ofNat_row]
    have := b.isLt
    omega
  · show min (Read.val_main_v13 (F := Ideal) x1 (ix2 b 1)).toInt.toNat 199 = (x1 (ix1 b)).toNat
    rw [pairs_snd x1 b hsm, toInt_toNat_of_small _ hsm]
    omega

/-! ## The reference's run, stated with the specification -/

open Idealize.ShloMosaic.TcCoe

/-- Every weakly fair execution of the reference from a memory whose index words are all below 200 ends with its result
    buffer holding `result[b, l] = seq[b, idx[b], l]` of the two argument buffers, and the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg)
    (hidx : ∀ (c : Dev Cert.ReferenceIdeal.nD) b, (m ((c.tc : Thread Cert.ReferenceIdeal.nD Cert.ReferenceIdeal.τ).loc Cert.ReferenceIdeal.main_arg1) b).toNat < 200) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v14)
        = Cert.Proof.Spec.pick (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((Read.val_main_v14_eq _ _).trans (val_eq_pick _ _ (hidx c))), (h c).2⟩)
    (Cert.ReferenceIdeal.Value.run (F := Ideal) m ρ)

end Cert.Proof.RefSide

end
-- ==== Proof.lean ====
/-
  The claim for the row-picking kernel: for a three-axis array `seq : f32[4096, 200, 128]` and index words
  `idx : i32[4096]` with `0 ≤ idx b ≤ 199`, result row `b` is row `idx b` of slab `b`.
  The kernel re-lays `seq` as a table of 819200 rows and has thirty-two SparseCore tasks each fetch 128 index words,
  add `200·b` to word `b` (the table row where slab `b` begins), gather those table rows and write them out; the
  reference is one host gather over the pairs `(b, idx b)`. Both are the function `Spec.pick` of the two arguments:
  row `200·b + idx b` of the table is element-for-element row `idx b` of slab `b` (row-major order), and the host
  gather's wrap-around and clamping of indices are the identity on indices in range. No arithmetic on the floats is
  involved, so the two results agree at every instance; the precondition's integer half is what makes every index a row.
-/
import proofs.«219289_g10934986736288_week1_w3_421_6_alg».proof.Defs
import proofs.«219289_g10934986736288_week1_w3_421_6_alg».proof.Proof.Gen.Kernel
import proofs.«219289_g10934986736288_week1_w3_421_6_alg».proof.Proof.Gen.Kernel.Skeleton
import proofs.«219289_g10934986736288_week1_w3_421_6_alg».proof.Proof.Gen.KernelIdeal
import proofs.«219289_g10934986736288_week1_w3_421_6_alg».proof.Proof.Gen.KernelIdeal.Skeleton
import proofs.«219289_g10934986736288_week1_w3_421_6_alg».proof.Proof.Gen.ReferenceIdeal
import proofs.«219289_g10934986736288_week1_w3_421_6_alg».proof.Proof.Gen.Pre_input_domain
import proofs.«219289_g10934986736288_week1_w3_421_6_alg».proof.Proof.IdealGatherLaunch
import proofs.«219289_g10934986736288_week1_w3_421_6_alg».proof.Proof.WordGatherLaunch
import proofs.«219289_g10934986736288_week1_w3_421_6_alg».proof.Proof.RefSide
import Idealize.ShloMosaic.Adequacy
import Idealize.ShloMosaic.Init

noncomputable section

namespace Cert.Proof

open Idealize.ShloMosaic Idealize.SL.Sem

/-- The precondition's integer half, at either program: every index word names a row of its slab. -/
theorem preOK_word (m : (ℓ : Loc Cert.Kernel.nD Cert.Kernel.τ Cert.Kernel.sig) → Buf (Elt Bits) ℓ)
    (h : Cert.Pre_Kernel (hPre_input_domain := Cert.Pre_input_domain.Gen.facts) m) : Cert.Proof.WordGather.PreOK (F := Bits) m :=
  fun d j => Cert.Proof.RefSide.idx_lt_of_pre _ _ (h d) j
theorem preOK_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.Proof.IdealGather.PreOK (F := Ideal) m :=
  fun d j => Cert.Proof.RefSide.idx_lt_of_pre _ _ (h d) j

theorem claim : Cert.Claim := ⟨Cert.Kernel.Gen.facts, Cert.KernelIdeal.Gen.facts, Cert.ReferenceIdeal.Gen.facts, Cert.Pre_input_domain.Gen.facts, by
  refine ⟨?_, ?_, ?_, trivial, ?_⟩
  · -- the word-level kernel's run, its result dropped
    intro m ρ hpre
    exact (θ_run Cert.Kernel.defs _ _).mono (fun _ h c => ⟨(h c).2.1, (h c).2.2⟩)
      (Cert.Proof.WordGather.run_main (F := Bits) m ρ (preOK_word m hpre))
  · -- the idealized kernel's run, its result dropped
    intro m ρ hpre
    exact (θ_run Cert.KernelIdeal.defs _ _).mono (fun _ h c => ⟨(h c).2.1, (h c).2.2⟩)
      (Cert.Proof.IdealGather.run_main (F := Ideal) m ρ (preOK_ideal m hpre))
  · -- the reference's run, its result dropped
    intro m ρ hpre
    exact (θ_run Cert.ReferenceIdeal.defs _ _).mono (fun _ h c => (h c).2)
      (Cert.Proof.RefSide.ref_run m ρ (fun c b => Cert.Proof.RefSide.idx_lt_of_pre _ _ (hpre c) b))
  · -- both results are the specification's function of the (agreeing) arguments
    intro m ρ m' ρ' hpre hagree
    refine ⟨fun c => Cert.Proof.Spec.pick (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.Proof.IdealGather.run_main (F := Ideal) m ρ (preOK_ideal m hpre), ?_⟩
    have hidx : ∀ (c : Dev Cert.ReferenceIdeal.nD) b,
        (m' ((c.tc : Thread Cert.ReferenceIdeal.nD Cert.ReferenceIdeal.τ).loc Cert.ReferenceIdeal.main_arg1) b).toNat < 200 := fun c b =>
      lt_of_eq_of_lt (congrArg BitVec.toNat (congrFun (hagree c).2 b)) (Cert.Proof.RefSide.idx_lt_of_pre _ _ (hpre c) b)
    refine (θ_run Cert.ReferenceIdeal.defs _ _).mono (fun _ h c => ⟨(h c).1.trans ?_, (h c).2⟩) (Cert.Proof.RefSide.ref_run m' ρ' hidx)
    rw [(hagree c).1, (hagree c).2]⟩

end Cert.Proof

end
